-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S64x1 : Shape := ⟨2, ![64, 1]⟩
abbrev S64 : Shape := ⟨1, ![64]⟩
abbrev S64x64 : Shape := ⟨2, ![64, 64]⟩
abbrev S_ : Shape := ⟨0, ![]⟩

class Facts : Prop where
  bcast_S_S64x1 : S_.BroadcastsInDim S64x1 (![] : Fin 0 → Fin S64x1.rank)
  reducesTo_S64x1_S_d0_1 : S64x1.ReducesTo [0, 1] S_
  h_S_ : 0 < S_.numel
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : IVec S256x512 32) (main_arg1 : IVec S256x512 32) (main_arg2 : FVec F S64x1 .f32) (main_arg3 : FVec F S64 .f32) (main_arg4 : FVec F S64x64 .f32) (main_arg5 : FVec F S64 .f32) : IVec S_ 1 :=
  let main_v0 : FVec F S64x1 .f32 := Host.absf main_arg2
  let main_cst : FVec F S_ .f32 := constant S_ .f32 0x7F800000#32
  let main_v1 : FVec F S64x1 .f32 := broadcastInDim S64x1 ![] bcast_S_S64x1 main_cst
  let main_v2 : IVec S64x1 1 := cmpf .olt main_v0 main_v1
  let main_c : IVec S_ 1 := constantI S_ 1 1#1
  let main_v3 : IVec S_ 1 := (fun x v => Host.reduce IntOp.andi x v reducesTo_S64x1_S_d0_1 h_S_) main_v2 main_c
  let main_v4 : FVec F S64 .f32 := Host.absf main_arg3
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S256x512 : Shape := ⟨2, ![256, 512]⟩
abbrev S64x1 : Shape := ⟨2, ![64, 1]⟩
abbrev S64 : Shape := ⟨1, ![64]⟩
abbrev S64x64 : Shape := ⟨2, ![64, 64]⟩
abbrev S1x64 : Shape := ⟨2, ![1, 64]⟩
abbrev S256x512x128 : Shape := ⟨3, ![256, 512, 128]⟩
abbrev S16x512 : Shape := ⟨2, ![16, 512]⟩
abbrev S16x512x128 : Shape := ⟨3, ![16, 512, 128]⟩
abbrev S16x128 : Shape := ⟨2, ![16, 128]⟩
abbrev S16x512x1 : Shape := ⟨3, ![16, 512, 1]⟩
abbrev S16x1x128 : Shape := ⟨3, ![16, 1, 128]⟩
abbrev S1x16x512 : Shape := ⟨3, ![1, 16, 512]⟩
abbrev S4x16x512 : Shape := ⟨3, ![4, 16, 512]⟩
abbrev S4x16x512x1 : Shape := ⟨4, ![4, 16, 512, 1]⟩
abbrev S1x1x1x64 : Shape := ⟨4, ![1, 1, 1, 64]⟩
abbrev S4x16x512x64 : Shape := ⟨4, ![4, 16, 512, 64]⟩
abbrev S32768x64 : Shape := ⟨2, ![32768, 64]⟩
abbrev S1x16x512x64 : Shape := ⟨4, ![1, 16, 512, 64]⟩
abbrev S16x512x64 : Shape := ⟨3, ![16, 512, 64]⟩
abbrev S256x512x64 : Shape := ⟨3, ![256, 512, 64]⟩

abbrev nBuf : Space → Nat
  | .hbm => 12
  | .vmem => 10
  | .smem => 0
  | _ => 0

abbrev bufTy : (tb : Table) → Fin (tcTables nBuf tb) → BufTy
  | .hbm, ⟨0, _⟩ => ⟨S256x512, .i32⟩
  | .hbm, ⟨1, _⟩ => ⟨S256x512, .i32⟩
  | .hbm, ⟨2, _⟩ => ⟨S64x1, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x64, .f32⟩
  | .hbm, ⟨7, _⟩ => ⟨S1x64, .f32⟩
  | .hbm, ⟨8, _⟩ => ⟨S64x64, .f32⟩
  | .hbm, ⟨9, _⟩ => ⟨S256x512x128, .f32⟩
  | .hbm, ⟨10, _⟩ => ⟨S256x512x64, .f32⟩
  | .hbm, ⟨11, _⟩ => ⟨S256x512x64, .f32⟩
  | .local _ .vmem, ⟨0, _⟩ => ⟨S16x512, .i32⟩
  | .local _ .vmem, ⟨1, _⟩ => ⟨S16x512, .i32⟩
  | .local _ .vmem, ⟨2, _⟩ => ⟨S16x512, .i32⟩
  | .local _ .vmem, ⟨3, _⟩ => ⟨S16x512, .i32⟩
  | .local _ .vmem, ⟨4, _⟩ => ⟨S64x1, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S16x512x128, .f32⟩
  | .local _ .vmem, ⟨9, _⟩ => ⟨S16x512x128, .f32⟩
  | _, _ => ⟨S256x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S64_S1x64 : S64.ShapeCasts S1x64
  transposes_S64x64_S64x64_1_0 : S64x64.Transposes [1, 0] S64x64
  inb_S16x512_S16x512_0_0 : ∀ a, (![0, 0] : Fin 2 → Nat) a + S16x512.size a ≤ S16x512.size a
  h_S16x512 : 0 < S16x512.numel
  slices_S16x512_o0_0_S16x128 : S16x512.Slices ![0, 0] S16x128
  shapeCasts_S16x512_S16x512x1 : S16x512.ShapeCasts S16x512x1
  shapeCasts_S16x128_S16x1x128 : S16x128.ShapeCasts S16x1x128
  broadcasts_S16x512x1_S16x512x128 : S16x512x1.Broadcasts S16x512x128
  broadcasts_S16x1x128_S16x512x128 : S16x1x128.Broadcasts S16x512x128
  natLt_1_32 : 1 < 32
  reduces_S16x512x128_S16x512 : S16x512x128.Reduces [2] S16x512
  reduces_S16x512x128_S16x128 : S16x512x128.Reduces [1] S16x128
  slices_S16x512_o0_128_S16x128 : S16x512.Slices ![0, 128] S16x128
  slices_S16x512_o0_256_S16x128 : S16x512.Slices ![0, 256] S16x128
  slices_S16x512_o0_384_S16x128 : S16x512.Slices ![0, 384] S16x128
  concatenates_S16x128_S16x128_S16x128_S16x128_S16x512_d1 : Shape.Concatenates [S16x128, S16x128, S16x128, S16x128] S16x512 1
  shapeCasts_S16x512_S1x16x512 : S16x512.ShapeCasts S1x16x512
  concatenates_S1x16x512_S1x16x512_S1x16x512_S1x16x512_S4x16x512_d0 : Shape.Concatenates [S1x16x512, S1x16x512, S1x16x512, S1x16x512] S4x16x512 0
  inb_S64x1_S64x1_0_0 : ∀ a, (![0, 0] : Fin 2 → Nat) a + S64x1.size a ≤ S64x1.size a
  h_S64x1 : 0 < S64x1.numel
  shapeCasts_S64x1_S64 : S64x1.ShapeCasts S64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S64 : S1x64.ShapeCasts S64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S4x16x512_S4x16x512x1 : S4x16x512.ShapeCasts S4x16x512x1
  shapeCasts_S64_S1x1x1x64 : S64.ShapeCasts S1x1x1x64
  broadcasts_S4x16x512x1_S4x16x512x64 : S4x16x512x1.Broadcasts S4x16x512x64
  broadcasts_S1x1x1x64_S4x16x512x64 : S1x1x1x64.Broadcasts S4x16x512x64
  shapeCasts_S4x16x512x64_S32768x64 : S4x16x512x64.ShapeCasts S32768x64
  broadcasts_S1x64_S32768x64 : S1x64.Broadcasts S32768x64
  shapeCasts_S32768x64_S4x16x512x64 : S32768x64.ShapeCasts S4x16x512x64
  slices_S4x16x512x64_o0_0_0_0_S1x16x512x64 : S4x16x512x64.Slices ![0, 0, 0, 0] S1x16x512x64
  shapeCasts_S1x16x512x64_S16x512x64 : S1x16x512x64.ShapeCasts S16x512x64
  slices_S4x16x512x64_o1_0_0_0_S1x16x512x64 : S4x16x512x64.Slices ![1, 0, 0, 0] S1x16x512x64
  slices_S4x16x512x64_o2_0_0_0_S1x16x512x64 : S4x16x512x64.Slices ![2, 0, 0, 0] S1x16x512x64
  slices_S4x16x512x64_o3_0_0_0_S1x16x512x64 : S4x16x512x64.Slices ![3, 0, 0, 0] S1x16x512x64
  concatenates_S16x512x64_S16x512x64_S16x512x128_d2 : Shape.Concatenates [S16x512x64, S16x512x64] S16x512x128 2
  inb_S16x512x128_S16x512x128_0_0_0 : ∀ a, (![0, 0, 0] : Fin 3 → Nat) a + S16x512x128.size a ≤ S16x512x128.size a
  h_S16x512x128 : 0 < S16x512x128.numel
  slices_S256x512x128_S256x512x64_0_0_0 : S256x512x128.Slices ![0, 0, 0] S256x512x64
  slices_S256x512x128_S256x512x64_0_0_64 : S256x512x128.Slices ![0, 0, 64] S256x512x64
  dot_S32768x64_S64x64_S32768x64_1_0_0_1_n_n_wf : DotDims.WF S32768x64 S64x64 S32768x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512.size a ≤ S256x512.size a
  hwx0_0 : ∀ i : grid0.Coords, EltTy.bits .i32 = 32 ∨ (Rect.block (s := S256x512) S16x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x512.size a ≤ S256x512.size a
  hwx0_1 : ∀ i : grid0.Coords, EltTy.bits .i32 = 32 ∨ (Rect.block (s := S256x512) S16x512.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x512x128.size a ≤ S256x512x128.size a
  hwx0_6 : ∀ i : grid0.Coords, EltTy.bits .f32 = 32 ∨ (Rect.block (s := S256x512x128) S16x512x128.size (cc0_transform_6 i) (hinb0_6 i)).WholeWords (EltTy.packing .f32)

variable [Facts₀]

def dot_S32768x64_S64x64_S32768x64_1_0_0_1_n_n : DotDims S32768x64 S64x64 S32768x64 where
  lhsContracting := [1]
  rhsContracting := [0]
  lhsNonContracting := [0]
  rhsNonContracting := [1]
  lhsBatch := []
  rhsBatch := []
  wf := dot_S32768x64_S64x64_S32768x64_1_0_0_1_n_n_wf

abbrev win0_0 : Pipeline.Window sig grid0 :=
  Pipeline.Window.ofSpec (Memref.whole main_arg0) S16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S16x512x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S256x512 : Shape := ⟨2, ![256, 512]⟩
abbrev S64x1 : Shape := ⟨2, ![64, 1]⟩
abbrev S64 : Shape := ⟨1, ![64]⟩
abbrev S64x64 : Shape := ⟨2, ![64, 64]⟩
abbrev S256x512x1 : Shape := ⟨3, ![256, 512, 1]⟩
abbrev S256x1x512 : Shape := ⟨3, ![256, 1, 512]⟩
abbrev S256x512x512 : Shape := ⟨3, ![256, 512, 512]⟩
abbrev S_ : Shape := ⟨0, ![]⟩
abbrev S256x512x2 : Shape := ⟨3, ![256, 512, 2]⟩
abbrev S256x512x2x1 : Shape := ⟨4, ![256, 512, 2, 1]⟩
abbrev S1x1x1x64 : Shape := ⟨4, ![1, 1, 1, 64]⟩
abbrev S256x512x2x64 : Shape := ⟨4, ![256, 512, 2, 64]⟩
abbrev S256x512x64 : Shape := ⟨3, ![256, 512, 64]⟩

abbrev nBuf : Space → Nat
  | .hbm => 100
  | .vmem => 0
  | .smem => 0
  | _ => 0

abbrev bufTy : (tb : Table) → Fin (tcTables nBuf tb) → BufTy
  | .hbm, ⟨0, _⟩ => ⟨S256x512, .i32⟩
  | .hbm, ⟨1, _⟩ => ⟨S256x512, .i32⟩
  | .hbm, ⟨2, _⟩ => ⟨S64x1, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S256x512x1, .i32⟩
  | .hbm, ⟨7, _⟩ => ⟨S256x1x512, .i32⟩
  | .hbm, ⟨8, _⟩ => ⟨S256x512x512, .i32⟩
  | .hbm, ⟨9, _⟩ => ⟨S256x512x512, .i32⟩
  | .hbm, ⟨10, _⟩ => ⟨S256x512x512, .i1⟩
  | .hbm, ⟨11, _⟩ => ⟨S256x512x512, .i32⟩
  | .hbm, ⟨12, _⟩ => ⟨S_, .i32⟩
  | .hbm, ⟨13, _⟩ => ⟨S256x512, .i32⟩
  | .hbm, ⟨14, _⟩ => ⟨S256x512x1, .i32⟩
  | .hbm, ⟨15, _⟩ => ⟨S256x1x512, .i32⟩
  | .hbm, ⟨16, _⟩ => ⟨S256x512x512, .i32⟩
  | .hbm, ⟨17, _⟩ => ⟨S256x512x512, .i32⟩
  | .hbm, ⟨18, _⟩ => ⟨S256x512x512, .i1⟩
  | .hbm, ⟨19, _⟩ => ⟨S256x512x512, .i32⟩
  | .hbm, ⟨20, _⟩ => ⟨S_, .i32⟩
  | .hbm, ⟨21, _⟩ => ⟨S256x512, .i32⟩
  | .hbm, ⟨22, _⟩ => ⟨S256x512x1, .i32⟩
  | .hbm, ⟨23, _⟩ => ⟨S256x1x512, .i32⟩
  | .hbm, ⟨24, _⟩ => ⟨S256x512x512, .i32⟩
  | .hbm, ⟨25, _⟩ => ⟨S256x512x512, .i32⟩
  | .hbm, ⟨26, _⟩ => ⟨S256x512x512, .i1⟩
  | .hbm, ⟨27, _⟩ => ⟨S256x512x512, .i32⟩
  | .hbm, ⟨28, _⟩ => ⟨S_, .i32⟩
  | .hbm, ⟨29, _⟩ => ⟨S256x512, .i32⟩
  | .hbm, ⟨30, _⟩ => ⟨S256x512x1, .i32⟩
  | .hbm, ⟨31, _⟩ => ⟨S256x1x512, .i32⟩
  | .hbm, ⟨32, _⟩ => ⟨S256x512x512, .i32⟩
  | .hbm, ⟨33, _⟩ => ⟨S256x512x512, .i32⟩
  | .hbm, ⟨34, _⟩ => ⟨S256x512x512, .i1⟩
  | .hbm, ⟨35, _⟩ => ⟨S256x512x512, .i32⟩
  | .hbm, ⟨36, _⟩ => ⟨S_, .i32⟩
  | .hbm, ⟨37, _⟩ => ⟨S256x512, .i32⟩
  | .hbm, ⟨38, _⟩ => ⟨S256x512x1, .i32⟩
  | .hbm, ⟨39, _⟩ => ⟨S256x512x1, .i32⟩
  | .hbm, ⟨40, _⟩ => ⟨S256x512x2, .i32⟩
  | .hbm, ⟨41, _⟩ => ⟨S256x512x2, .f32⟩
  | .hbm, ⟨42, _⟩ => ⟨S256x512x1, .i32⟩
  | .hbm, ⟨43, _⟩ => ⟨S256x512x1, .i32⟩
  | .hbm, ⟨44, _⟩ => ⟨S256x512x2, .i32⟩
  | .hbm, ⟨45, _⟩ => ⟨S256x512x2, .f32⟩
  | .hbm, ⟨46, _⟩ => ⟨S_, .i32⟩
  | .hbm, ⟨47, _⟩ => ⟨S256x512, .i32⟩
  | .hbm, ⟨48, _⟩ => ⟨S256x512, .i1⟩
  | .hbm, ⟨49, _⟩ => ⟨S256x512x1, .i1⟩
  | .hbm, ⟨50, _⟩ => ⟨S_, .f32⟩
  | .hbm, ⟨51, _⟩ => ⟨S_, .f32⟩
  | .hbm, ⟨52, _⟩ => ⟨S256x512x2, .i1⟩
  | .hbm, ⟨53, _⟩ => ⟨S256x512x2, .f32⟩
  | .hbm, ⟨54, _⟩ => ⟨S256x512x2, .f32⟩
  | .hbm, ⟨55, _⟩ => ⟨S_, .i32⟩
  | .hbm, ⟨56, _⟩ => ⟨S256x512, .i32⟩
  | .hbm, ⟨57, _⟩ => ⟨S256x512, .i1⟩
  | .hbm, ⟨58, _⟩ => ⟨S256x512x1, .i1⟩
  | .hbm, ⟨59, _⟩ => ⟨S_, .f32⟩
  | .hbm, ⟨60, _⟩ => ⟨S_, .f32⟩
  | .hbm, ⟨61, _⟩ => ⟨S256x512x2, .i1⟩
  | .hbm, ⟨62, _⟩ => ⟨S256x512x2, .f32⟩
  | .hbm, ⟨63, _⟩ => ⟨S256x512x2, .f32⟩
  | .hbm, ⟨64, _⟩ => ⟨S256x512x2x1, .f32⟩
  | .hbm, ⟨65, _⟩ => ⟨S64, .f32⟩
  | .hbm, ⟨66, _⟩ => ⟨S1x1x1x64, .f32⟩
  | .hbm, ⟨67, _⟩ => ⟨S256x512x2x64, .f32⟩
  | .hbm, ⟨68, _⟩ => ⟨S256x512x2x64, .f32⟩
  | .hbm, ⟨69, _⟩ => ⟨S256x512x2x64, .f32⟩
  | .hbm, ⟨70, _⟩ => ⟨S1x1x1x64, .f32⟩
  | .hbm, ⟨71, _⟩ => ⟨S256x512x2x64, .f32⟩
  | .hbm, ⟨72, _⟩ => ⟨S256x512x2x64, .f32⟩
  | .hbm, ⟨73, _⟩ => ⟨S_, .f32⟩
  | .hbm, ⟨74, _⟩ => ⟨S256x512x2x64, .f32⟩
  | .hbm, ⟨75, _⟩ => ⟨S256x512x2x64, .f32⟩
  | .hbm, ⟨76, _⟩ => ⟨S256x512x2x64, .f32⟩
  | .hbm, ⟨77, _⟩ => ⟨S1x1x1x64, .f32⟩
  | .hbm, ⟨78, _⟩ => ⟨S256x512x2x64, .f32⟩
  | .hbm, ⟨79, _⟩ => ⟨S256x512x2x64, .f32⟩
  | .hbm, ⟨80, _⟩ => ⟨S_, .f32⟩
  | .hbm, ⟨81, _⟩ => ⟨S256x512x64, .f32⟩
  | .hbm, ⟨82, _⟩ => ⟨S256x512x2x1, .f32⟩
  | .hbm, ⟨83, _⟩ => ⟨S64, .f32⟩
  | .hbm, ⟨84, _⟩ => ⟨S1x1x1x64, .f32⟩
  | .hbm, ⟨85, _⟩ => ⟨S256x512x2x64, .f32⟩
  | .hbm, ⟨86, _⟩ => ⟨S256x512x2x64, .f32⟩
  | .hbm, ⟨87, _⟩ => ⟨S256x512x2x64, .f32⟩
  | .hbm, ⟨88, _⟩ => ⟨S1x1x1x64, .f32⟩
  | .hbm, ⟨89, _⟩ => ⟨S256x512x2x64, .f32⟩
  | .hbm, ⟨90, _⟩ => ⟨S256x512x2x64, .f32⟩
  | .hbm, ⟨91, _⟩ => ⟨S_, .f32⟩
  | .hbm, ⟨92, _⟩ => ⟨S256x512x2x64, .f32⟩
  | .hbm, ⟨93, _⟩ => ⟨S256x512x2x64, .f32⟩
  | .hbm, ⟨94, _⟩ => ⟨S256x512x2x64, .f32⟩
  | .hbm, ⟨95, _⟩ => ⟨S1x1x1x64, .f32⟩
  | .hbm, ⟨96, _⟩ => ⟨S256x512x2x64, .f32⟩
  | .hbm, ⟨97, _⟩ => ⟨S256x512x2x64, .f32⟩
  | .hbm, ⟨98, _⟩ => ⟨S_, .f32⟩
  | .hbm, ⟨99, _⟩ => ⟨S256x512x64, .f32⟩
  | _, _ => ⟨S256x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_v39 : Ref sig .tc := ⟨.hbm, 54, rfl⟩
abbrev main_c_4 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_5 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_call2_cst : Ref sig .tc := ⟨.hbm, 73, rfl⟩
abbrev main_call2_v0 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_6 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_call3_cst : Ref sig .tc := ⟨.hbm, 91, rfl⟩
abbrev main_call3_v0 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_7 : Ref sig .tc := ⟨.hbm, 98, rfl⟩
abbrev main_v73 : Ref sig .tc := ⟨.hbm, 99, rfl⟩

abbrev nD : Nat := 1
abbrev τ : Topo := Topo.v7x

variable {F : FTy → Type} [FloatOps F]

class Facts₀ : Prop where
  bcast_S256x512_S256x512x1_0_1 : S256x512.BroadcastsInDim S256x512x1 (![0, 1] : Fin 2 → Fin S256x512x1.rank)
  bcast_S256x512_S256x1x512_0_2 : S256x512.BroadcastsInDim S256x1x512 (![0, 2] : Fin 2 → Fin S256x1x512.rank)
  bcast_S256x512x1_S256x512x512_0_1_2 : S256x512x1.BroadcastsInDim S256x512x512 (![0, 1, 2] : Fin 3 → Fin S256x512x512.rank)
  bcast_S256x1x512_S256x512x512_0_1_2 : S256x1x512.BroadcastsInDim S256x512x512 (![0, 1, 2] : Fin 3 → Fin S256x512x512.rank)
  natLt_1_32 : 1 < 32
  reducesTo_S256x512x512_S256x512_d2 : S256x512x512.ReducesTo [2] S256x512
  h_S_ : 0 < S_.numel
  concatenates_S256x512x1_S256x512x1_S256x512x2_d2 : Shape.Concatenates [S256x512x1, S256x512x1] S256x512x2 2
  bcast_S_S256x512 : S_.BroadcastsInDim S256x512 (![] : Fin 0 → Fin S256x512.rank)
  bcast_S256x512x1_S256x512x2_0_1_2 : S256x512x1.BroadcastsInDim S256x512x2 (![0, 1, 2] : Fin 3 → Fin S256x512x2.rank)
  bcast_S_S256x512x2 : S_.BroadcastsInDim S256x512x2 (![] : Fin 0 → Fin S256x512x2.rank)
  bcast_S256x512x2_S256x512x2x1_0_1_2 : S256x512x2.BroadcastsInDim S256x512x2x1 (![0, 1, 2] : Fin 3 → Fin S256x512x2x1.rank)
  shapeCasts_S64x1_S64 : S64x1.ShapeCasts S64
  bcast_S64_S1x1x1x64_3 : S64.BroadcastsInDim S1x1x1x64 (![3] : Fin 1 → Fin S1x1x1x64.rank)
  bcast_S256x512x2x1_S256x512x2x64_0_1_2_3 : S256x512x2x1.BroadcastsInDim S256x512x2x64 (![0, 1, 2, 3] : Fin 4 → Fin S256x512x2x64.rank)
  bcast_S1x1x1x64_S256x512x2x64_0_1_2_3 : S1x1x1x64.BroadcastsInDim S256x512x2x64 (![0, 1, 2, 3] : Fin 4 → Fin S256x512x2x64.rank)
  bcast_S_S256x512x2x64 : S_.BroadcastsInDim S256x512x2x64 (![] : Fin 0 → Fin S256x512x2x64.rank)
  reducesTo_S256x512x2x64_S256x512x64_d2 : S256x512x2x64.ReducesTo [2] S256x512x64
  dot_S256x512x2x64_S64x64_S256x512x2x64_3_1_012_0_n_n_wf : DotDims.WF S256x512x2x64 S64x64 S256x512x2x64 [3] [1] [0, 1, 2] [0] [] []

variable [Facts₀]

def dot_S256x512x2x64_S64x64_S256x512x2x64_3_1_012_0_n_n : DotDims S256x512x2x64 S64x64 S256x512x2x64 where
  lhsContracting := [3]
  rhsContracting := [1]
  lhsNonContracting := [0, 1, 2]
  rhsNonContracting := [0]
  lhsBatch := []
  rhsBatch := []
  wf := dot_S256x512x2x64_S64x64_S256x512x2x64_3_1_012_0_n_n_wf

class Facts : Prop extends Facts₀ where

variable [Facts]
-- ==== Proof.Counts.lean ====
/-
  Counting equal ids, and the two-layer encoding of a count.

  Both programs count, for an id `v` and a row `y` of 512 ids, how many entries of the row equal `v`. One of them
  adds the 0/1 indicators as extended reals, 128 at a time, starting from zero; the other adds them as 32-bit words
  and converts the total. A row has 512 entries, far below 2^31, so the word total is the true count and its
  conversion is the real number `occ v y` = the sum over the row of the indicator — which is also what the four
  partial sums add up to. A count then goes through the same two layers on both sides: for each of 64 output
  features, the sum over 64 hidden units of `max (c * w1 d + b1 d) 0` times a weight, plus a bias (`enc`).
-/
import Idealize.ShloMosaic.PureOps.Ideal
import Idealize.ShloMosaic.PureOps.Ideal.Laws
import Idealize.ShloMosaic.Lib.IndicatorCount
import Idealize.ShloMosaic.Lib.ValueIdx

noncomputable section

open scoped BigOperators

namespace Cert.Counts

open Idealize.ShloMosaic

/-- 1 when the two ids are equal, 0 when they are not. -/
def ind (a b : BitVec 32) : ℝ := if a = b then 1 else 0

/-- Equality of ids is symmetric, so the indicator is. -/
theorem ind_comm (a b : BitVec 32) : ind a b = ind b a := by
  unfold ind
  by_cases h : a = b
  · rw [if_pos h, if_pos h.symm]
  · rw [if_neg h, if_neg (fun e => h e.symm)]

/-- The one-bit comparison is the bit 1 exactly when the ids are equal. -/
theorem cmpi_eq_one_iff (a b : BitVec 32) : IntOp.cmpi .eq a b = 1#1 ↔ a = b := by
  show BitVec.ofBool (a == b) = 1#1 ↔ a = b
  by_cases h : a = b
  · subst h
    rw [beq_self_eq_true]
    exact ⟨fun _ => rfl, fun _ => rfl⟩
  · rw [beq_eq_false_iff_ne.2 h]
    exact ⟨fun e => absurd e (by decide), fun e => absurd e h⟩

/-- The comparison bit, widened to a word and read as a signed integer, is the indicator. -/
theorem toInt_widened_cmpi (a b : BitVec 32) : (((IntOp.cmpi .eq a b).setWidth 32).toInt : ℝ) = ind a b := by
  unfold ind
  by_cases h : a = b
  · rw [if_pos h, (cmpi_eq_one_iff a b).2 h]
    have e : ((1#1 : BitVec 1).setWidth 32).toInt = 1 := by decide
    rw [e]; norm_num
  · rw [if_neg h]
    have h0 : IntOp.cmpi .eq a b = 0#1 := ValueIdx.eq_zero_of_ne_one (fun e => h ((cmpi_eq_one_iff a b).1 e))
    rw [h0]
    have e : ((0#1 : BitVec 1).setWidth 32).toInt = 0 := by decide
    rw [e]; norm_num

/-- So, as an extended real, the converted comparison of two ids is their indicator. -/
theorem sitofp_cmpi (a b : BitVec 32) :
    FloatOps.sitofp (F := Ideal) .f32 ((IntOp.cmpi .eq a b).setWidth 32) = ((ind a b : ℝ) : EReal) := by
  show ((((IntOp.cmpi .eq a b).setWidth 32).toInt : ℝ) : EReal) = _
  rw [toInt_widened_cmpi]

/-- How many entries of the row `y` equal `v`, as a real number. -/
def occ {n : ℕ} (v : BitVec 32) (y : Fin n → BitVec 32) : ℝ := ∑ q : Fin n, ind v (y q)

/-- The inclusion of the reals in the extended reals commutes with finite sums. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum over 512 positions is the sum of its four runs of 128 consecutive positions. -/
theorem sum_four_chunks {M : Type} [AddCommMonoid M] (f : Fin 512 → M) :
    ∑ q, f q = ∑ k : Fin 128, f ⟨0 + k.val, by have := k.isLt; omega⟩ + ∑ k : Fin 128, f ⟨128 + k.val, by have := k.isLt; omega⟩
      + ∑ k : Fin 128, f ⟨256 + k.val, by have := k.isLt; omega⟩ + ∑ k : Fin 128, f ⟨384 + k.val, by have := k.isLt; omega⟩ := by
  let g : ℕ → M := fun i => if h : i < 512 then f ⟨i, h⟩ else 0
  have hg : ∀ (i : ℕ) (h : i < 512), f ⟨i, h⟩ = g i := fun i h => by
    show f ⟨i, h⟩ = dite (i < 512) (fun h' => f ⟨i, h'⟩) (fun _ => 0)
    rw [dif_pos h]
  have e0 : ∑ q, f q = ∑ i ∈ Finset.range (128 + 128 + 128 + 128), g i := by
    rw [show (128 + 128 + 128 + 128 : ℕ) = 512 from rfl, ← Fin.sum_univ_eq_sum_range g 512]
    exact Finset.sum_congr rfl fun q _ => hg q.val q.isLt
  have e : ∀ (o : ℕ) (ho : o + 128 ≤ 512),
      ∑ k : Fin 128, f ⟨o + k.val, by have := k.isLt; omega⟩ = ∑ i ∈ Finset.range 128, g (o + i) := fun o ho => by
    rw [← Fin.sum_univ_eq_sum_range (fun i => g (o + i)) 128]
    exact Finset.sum_congr rfl fun k _ => hg _ _
  rw [e 0 (by omega), e 128 (by omega), e 256 (by omega), e 384 (by omega), e0,
    Finset.sum_range_add, Finset.sum_range_add, Finset.sum_range_add]
  simp only [Nat.zero_add]

/-- Starting from zero and adding the four runs' indicator sums, as extended reals, gives the count. -/
theorem chunks_eq_occ (v : BitVec 32) (y : Fin 512 → BitVec 32) :
    (0 : EReal) + ∑ k : Fin 128, ((ind v (y ⟨0 + k.val, by have := k.isLt; omega⟩) : ℝ) : EReal)
        + ∑ k : Fin 128, ((ind v (y ⟨128 + k.val, by have := k.isLt; omega⟩) : ℝ) : EReal)
        + ∑ k : Fin 128, ((ind v (y ⟨256 + k.val, by have := k.isLt; omega⟩) : ℝ) : EReal)
        + ∑ k : Fin 128, ((ind v (y ⟨384 + k.val, by have := k.isLt; omega⟩) : ℝ) : EReal)
      = ((occ v y : ℝ) : EReal) := by
  unfold occ
  rw [sum_four_chunks (fun q => ind v (y q)), zero_add, EReal.coe_add, EReal.coe_add, EReal.coe_add,
    coe_sum, coe_sum, coe_sum, coe_sum]

/-- The word-level total of the widened comparison bits over a row of fewer than 2^31 ids, converted, is the count:
    the total is the number of equal entries as a word, and that number is small enough to be read back exactly. -/
theorem sitofp_fold_eq_occ {n : ℕ} (hn : n < 2147483648) (v : BitVec 32) (y : Fin n → BitVec 32) :
    FloatOps.sitofp (F := Ideal) .f32
        ((Finset.univ : Finset (Fin n)).fold IntOp.addi (0#32) (fun q => (IntOp.cmpi .eq v (y q)).setWidth 32))
      = ((occ v y : ℝ) : EReal) := by
  rw [IndicatorCount.fold_addi_setWidth_eq_card]
  have hle : (Finset.univ.filter fun q : Fin n => IntOp.cmpi .eq v (y q) = 1#1).card ≤ n := by
    have := Finset.card_filter_le (Finset.univ : Finset (Fin n)) (fun q : Fin n => IntOp.cmpi .eq v (y q) = 1#1)
    simpa using this
  generalize hc : (Finset.univ.filter fun q : Fin n => IntOp.cmpi .eq v (y q) = 1#1).card = c at hle
  have hti : (BitVec.ofNat 32 c).toInt = (c : ℤ) := by
    rw [BitVec.toInt_eq_toNat_cond, BitVec.toNat_ofNat, Nat.mod_eq_of_lt (by omega), if_pos (by omega)]
  have hocc : occ v y = (c : ℝ) := by
    unfold occ ind
    rw [Finset.sum_boole, ← hc]
    congr 2
    exact Finset.filter_congr fun q _ => (cmpi_eq_one_iff v (y q)).symm
  show ((((BitVec.ofNat 32 c).toInt : ℤ) : ℝ) : EReal) = _
  rw [hti, hocc]
  norm_cast

/-- The count with the padding id masked out: zero for the id 0, else the count. Written with the word-level select
    both programs use, on the same comparison bit and the same zero word. -/
def mcount (v : BitVec 32) (y : Fin 512 → BitVec 32) : EReal :=
  Scalar.select (IntOp.cmpi .eq v 0#32) (Ideal.ofBits .f32 0x00000000#32) ((occ v y : ℝ) : EReal)

/-- The two layers applied to one count `c`, at output feature `e`: over the 64 hidden units `d`, the rectified
    `c * w1 d + b1 d` times the weight `w2 e d`, summed, plus the bias `b2 e`. -/
def enc (w1 b1 : Fin 64 → EReal) (w2 : Fin 64 → Fin 64 → EReal) (b2 : Fin 64 → EReal) (c : EReal) (e : Fin 64) : EReal :=
  (∑ d : Fin 64, max (c * w1 d + b1 d) (Ideal.ofBits .f32 0x00000000#32) * w2 e d) + b2 e

/-- The feature `e` of an id `v` against two rows of ids: its masked count in the first row and its masked count in the
    second, each sent through the two layers, added. -/
def rowFeat (w1 b1 : Fin 64 → EReal) (w2 : Fin 64 → Fin 64 → EReal) (b2 : Fin 64 → EReal)
    (v : BitVec 32) (row0 row1 : Fin 512 → BitVec 32) (e : Fin 64) : EReal :=
  enc w1 b1 w2 b2 (mcount v row0) e + enc w1 b1 w2 b2 (mcount v row1) e

/-- A lane of the kernel's fused output: lanes 0..63 hold the features of the source id `vs`, lanes 64..127 those of the
    destination id `vd`, both against the same two rows. -/
def laneFeat (w1 b1 : Fin 64 → EReal) (w2 : Fin 64 → Fin 64 → EReal) (b2 : Fin 64 → EReal)
    (vs vd : BitVec 32) (row0 row1 : Fin 512 → BitVec 32) (c : Fin 128) : EReal :=
  if h : c.val < 64 then rowFeat w1 b1 w2 b2 vs row0 row1 ⟨c.val, h⟩
  else rowFeat w1 b1 w2 b2 vd row0 row1 ⟨c.val - 64, by have := c.isLt; omega⟩

/-- THE RESULTS, as functions of the six argument arrays: entry `(r, l, e)` of the first is the feature `e` of the source id
    at `(r, l)` against row `r` of the sources and row `r` of the destinations; of the second, that of the destination id. The
    first layer's weights are column 0 of `A2` and `A3`, the second layer's row `e` of `A4` and `A5 e`. -/
def srcOut (A0 A1 : (⟨2, ![256, 512]⟩ : Shape).Idx → BitVec 32) (A2 : (⟨2, ![64, 1]⟩ : Shape).Idx → EReal)
    (A3 : (⟨1, ![64]⟩ : Shape).Idx → EReal) (A4 : (⟨2, ![64, 64]⟩ : Shape).Idx → EReal) (A5 : (⟨1, ![64]⟩ : Shape).Idx → EReal) :
    (⟨3, ![256, 512, 64]⟩ : Shape).Idx → EReal := fun i =>
  rowFeat (fun d => A2 (ValueIdx.ix2 d (0 : Fin 1))) (fun d => A3 (ValueIdx.ix1 d)) (fun e d => A4 (ValueIdx.ix2 e d)) (fun e => A5 (ValueIdx.ix1 e))
    (A0 (ValueIdx.ix2 (⟨(i 0).val, (i 0).isLt⟩ : Fin 256) (⟨(i 1).val, (i 1).isLt⟩ : Fin 512)))
    (fun q : Fin 512 => A0 (ValueIdx.ix2 (⟨(i 0).val, (i 0).isLt⟩ : Fin 256) q))
    (fun q : Fin 512 => A1 (ValueIdx.ix2 (⟨(i 0).val, (i 0).isLt⟩ : Fin 256) q)) (⟨(i 2).val, (i 2).isLt⟩ : Fin 64)

def dstOut (A0 A1 : (⟨2, ![256, 512]⟩ : Shape).Idx → BitVec 32) (A2 : (⟨2, ![64, 1]⟩ : Shape).Idx → EReal)
    (A3 : (⟨1, ![64]⟩ : Shape).Idx → EReal) (A4 : (⟨2, ![64, 64]⟩ : Shape).Idx → EReal) (A5 : (⟨1, ![64]⟩ : Shape).Idx → EReal) :
    (⟨3, ![256, 512, 64]⟩ : Shape).Idx → EReal := fun i =>
  rowFeat (fun d => A2 (ValueIdx.ix2 d (0 : Fin 1))) (fun d => A3 (ValueIdx.ix1 d)) (fun e d => A4 (ValueIdx.ix2 e d)) (fun e => A5 (ValueIdx.ix1 e))
    (A1 (ValueIdx.ix2 (⟨(i 0).val, (i 0).isLt⟩ : Fin 256) (⟨(i 1).val, (i 1).isLt⟩ : Fin 512)))
    (fun q : Fin 512 => A0 (ValueIdx.ix2 (⟨(i 0).val, (i 0).isLt⟩ : Fin 256) q))
    (fun q : Fin 512 => A1 (ValueIdx.ix2 (⟨(i 0).val, (i 0).isLt⟩ : Fin 256) q)) (⟨(i 2).val, (i 2).isLt⟩ : Fin 64)

end Cert.Counts

end
-- ==== Proof.LibUnitAxes.lean ====
/-
  Unit axes added by a shape cast, and broadcasts along them, read at an index.

  A comparison of every entry of a row with every entry of another row is written by giving the first row a trailing
  unit axis and the second a middle one, and broadcasting both to the common three-axis shape: the first then reads
  the same at every position of the last axis, the second at every position of the middle one. The same device in
  four axes multiplies a table of scalars by a vector of weights. Each lemma says which entry of the operand one
  entry of the result is.
-/
import Idealize.ShloMosaic.Lib.Pipeline.Value
import Idealize.ShloMosaic.Lib.ValueIdx
import Idealize.ShloMosaic.Lib.ValueLayout

namespace Cert.LibUnitAxes

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, c]` array cast to `[a, b, c, 1]` reads, at `(i, j, k, u)`, the operand at `(i, j, k)`. -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_four, Shape.rowMajor_val_three]
    show (i.val * b + j.val) * c + k.val = ((i.val * b + j.val) * c + k.val) * 1 + u.val
    rw [hu, Nat.mul_one, Nat.add_zero])

/-- An `[a]` vector cast to `[1, 1, 1, a]` reads, at `(u, v, w, i)`, the operand at `i`. -/
theorem shapeCast_a_111a_apply {a : ℕ} (x : (⟨1, ![a]⟩ : Shape).Idx → α)
    (h : (⟨1, ![a]⟩ : Shape).ShapeCasts ⟨4, ![1, 1, 1, a]⟩) (u v w : Fin 1) (i : Fin a) :
    shapeCast ⟨4, ![1, 1, 1, a]⟩ x h (ix4 u v w i) = x (ix1 i) :=
  shapeCast_apply x h _ _ (by
    have hu : u.val = 0 := by omega
    have hv : v.val = 0 := by omega
    have hw : w.val = 0 := by omega
    rw [Shape.rowMajor_val_four, Shape.rowMajor_val_one]
    show i.val = ((u.val * 1 + v.val) * 1 + w.val) * a + i.val
    rw [hu, hv, hw]; simp)

/-- An `[a, 1]` column cast to the vector `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, b, 1]` array broadcast to `[a, b, c]` reads, at `(i, j, k)`, the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- An `[a, b, c, 1]` array broadcast to `[a, b, c, d]` reads, at `(i, j, k, l)`, the operand at `(i, j, k, 0)`. -/
theorem broadcastTo_abc1_abcd_apply {a b c d : ℕ} (x : (⟨4, ![a, b, c, 1]⟩ : Shape).Idx → α)
    (h : (⟨4, ![a, b, c, 1]⟩ : Shape).Broadcasts ⟨4, ![a, b, c, d]⟩) (i : Fin a) (j : Fin b) (k : Fin c) (l : Fin d) :
    broadcastTo ⟨4, ![a, b, c, d]⟩ x h (ix4 i j k l) = x (ix4 i j k (0 : Fin 1)) := by
  refine broadcastTo_apply x h (ix4 i j k l) (ix4 i j k (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ => rfl

/-- A `[1, 1, 1, d]` array broadcast to `[a, b, c, d]` reads, at `(i, j, k, l)`, the operand at `(0, 0, 0, l)`. -/
theorem broadcastTo_111d_abcd_apply {a b c d : ℕ} (x : (⟨4, ![1, 1, 1, d]⟩ : Shape).Idx → α)
    (h : (⟨4, ![1, 1, 1, d]⟩ : Shape).Broadcasts ⟨4, ![a, b, c, d]⟩) (i : Fin a) (j : Fin b) (k : Fin c) (l : Fin d) :
    broadcastTo ⟨4, ![a, b, c, d]⟩ x h (ix4 i j k l) = x (ix4 (0 : Fin 1) (0 : Fin 1) (0 : Fin 1) l) := by
  refine broadcastTo_apply x h (ix4 i j k l) (ix4 (0 : Fin 1) (0 : Fin 1) (0 : Fin 1) l) fun ax => ?_
  match ax with
  | ⟨0, _⟩ => rfl
  | ⟨1, _⟩ => rfl
  | ⟨2, _⟩ => rfl
  | ⟨3, _⟩ =>
    show l.val = if d = 1 then 0 else l.val
    split
    · have := l.isLt; omega
    · rfl

end Cert.LibUnitAxes
-- ==== Proof.KernelCounts.lean ====
/-
  The kernel body's four tables of counts, read at an entry.

  A block holds 16 rows of 512 source ids `v0` and 16 rows of 512 destination ids `v1`. For a row `b`, the body forms
  the table `[v0 (b, i) = y (b, j)]` of 0/1 values over all positions `i` and over a run of 128 positions `j` of a row `y`
  (the table `cmpTable`), and adds it up along `j` (a row sum, one number per `i`) or along `i` (a column sum, one number per
  `j`). Row sums of the four runs of 128, added from zero, count how often the id at `(b, i)` occurs in row `b` of `y`;
  the column sums of the four runs, laid side by side, count how often the id `v1 (b, j)` occurs in row `b` of `v0`
  (equality of ids is symmetric). Each count is then replaced by zero where its own id is the padding id 0.
-/
import proofs.«136408_j73701638799824_2_alg».proof.Proof.Gen.KernelIdeal.Skeleton
import proofs.«136408_j73701638799824_2_alg».proof.Proof.Counts
import proofs.«136408_j73701638799824_2_alg».proof.Proof.LibUnitAxes
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Cnt

open Idealize.ShloMosaic Idealize.ShloMosaic.ValueIdx Cert.KernelIdeal Cert.KernelIdeal.Gen Cert.Counts Cert.LibUnitAxes

/-- The table of 0/1 values `[x (b, i) = ys (b, k)]` over a row block `x` and a run `ys` of 128 positions. -/
def cmpTable (x : Vec Ideal S16x512 .i32) (ys : IVec S16x128 32) : FVec Ideal S16x512x128 .f32 :=
  sitofp .f32 (extui 32 (cmpi .eq
    (broadcastTo S16x512x128 (shapeCast S16x512x1 x shapeCasts_S16x512_S16x512x1) broadcasts_S16x512x1_S16x512x128)
    (broadcastTo S16x512x128 (shapeCast S16x1x128 ys shapeCasts_S16x128_S16x1x128) broadcasts_S16x1x128_S16x512x128)) natLt_1_32)

/-- Its entry at `(b, i, k)` is the indicator of `x (b, i) = ys (b, k)`. -/
theorem cmpTable_apply (x : Vec Ideal S16x512 .i32) (ys : IVec S16x128 32) (b : Fin 16) (i : Fin 512) (k : Fin 128) :
    cmpTable x ys (ix3 b i k) = ((ind (x (ix2 b i)) (ys (ix2 b k)) : ℝ) : EReal) := by
  have ex : broadcastTo S16x512x128 (shapeCast S16x512x1 x shapeCasts_S16x512_S16x512x1) broadcasts_S16x512x1_S16x512x128 (ix3 b i k)
      = x (ix2 b i) :=
    (broadcastTo_ab1_abc_apply _ broadcasts_S16x512x1_S16x512x128 b i k).trans
      (shapeCast_ab_ab1_apply x shapeCasts_S16x512_S16x512x1 b i (0 : Fin 1))
  have ey : broadcastTo S16x512x128 (shapeCast S16x1x128 ys shapeCasts_S16x128_S16x1x128) broadcasts_S16x1x128_S16x512x128 (ix3 b i k)
      = ys (ix2 b k) :=
    (broadcastTo_a1c_abc_apply _ broadcasts_S16x1x128_S16x512x128 b i k).trans
      (shapeCast_ab_a1b_apply ys shapeCasts_S16x128_S16x1x128 b (0 : Fin 1) k)
  show FloatOps.sitofp (F := Ideal) .f32 ((IntOp.cmpi .eq
      (broadcastTo S16x512x128 (shapeCast S16x512x1 x shapeCasts_S16x512_S16x512x1) broadcasts_S16x512x1_S16x512x128 (ix3 b i k))
      (broadcastTo S16x512x128 (shapeCast S16x1x128 ys shapeCasts_S16x128_S16x1x128) broadcasts_S16x1x128_S16x512x128 (ix3 b i k))).setWidth 32) = _
  rw [ex, ey]
  exact sitofp_cmpi _ _

/-- The table added up along the run: one number per position `i` of the row. -/
def rowChunk (x : Vec Ideal S16x512 .i32) (ys : IVec S16x128 32) : FVec Ideal S16x512 .f32 :=
  multiReduction .add [2] S16x512 (cmpTable x ys) 0x00000000#32 reduces_S16x512x128_S16x512 (.inl rfl) rfl

/-- The table added up along the row: one number per position `k` of the run. -/
def colChunk (x : Vec Ideal S16x512 .i32) (ys : IVec S16x128 32) : FVec Ideal S16x128 .f32 :=
  multiReduction .add [1] S16x128 (cmpTable x ys) 0x00000000#32 reduces_S16x512x128_S16x128 (.inl rfl) rfl

theorem lift_row (b : Fin 16) (i : Fin 512) (k : Fin 128) :
    reduces_S16x512x128_S16x512.lift (ix2 b i) k = ix3 b i k := by
  funext a; apply Fin.ext
  match a with
  | ⟨0, _⟩ => rfl
  | ⟨1, _⟩ => rfl
  | ⟨2, _⟩ => rfl

theorem lift_col (b : Fin 16) (k : Fin 128) (i : Fin 512) :
    reduces_S16x512x128_S16x128.lift (ix2 b k) i = ix3 b i k := by
  funext a; apply Fin.ext
  match a with
  | ⟨0, _⟩ => rfl
  | ⟨1, _⟩ => rfl
  | ⟨2, _⟩ => rfl

/-- The row sum at `(b, i)`: the indicators of `x (b, i) = ys (b, k)` added over the run. -/
theorem rowChunk_apply (x : Vec Ideal S16x512 .i32) (ys : IVec S16x128 32) (b : Fin 16) (i : Fin 512) :
    rowChunk x ys (ix2 b i) = ∑ k : Fin 128, ((ind (x (ix2 b i)) (ys (ix2 b k)) : ℝ) : EReal) := by
  refine (Ideal.multiReduction_add_single (cmpTable x ys) 0x00000000#32 reduces_S16x512x128_S16x512 (.inl rfl) rfl (ix2 b i)).trans ?_
  exact Finset.sum_congr rfl fun k _ => (congrArg (cmpTable x ys) (lift_row b i k)).trans (cmpTable_apply x ys b i k)

/-- The column sum at `(b, k)`: the indicators of `x (b, i) = ys (b, k)` added over the row. -/
theorem colChunk_apply (x : Vec Ideal S16x512 .i32) (ys : IVec S16x128 32) (b : Fin 16) (k : Fin 128) :
    colChunk x ys (ix2 b k) = ∑ i : Fin 512, ((ind (x (ix2 b i)) (ys (ix2 b k)) : ℝ) : EReal) := by
  refine (Ideal.multiReduction_add_single (cmpTable x ys) 0x00000000#32 reduces_S16x512x128_S16x128 (.inl rfl) rfl (ix2 b k)).trans ?_
  exact Finset.sum_congr rfl fun i _ => (congrArg (cmpTable x ys) (lift_col b k i)).trans (cmpTable_apply x ys b i k)

/-- The run of 128 positions of a row block that starts at position `o`, read at `(b, k)`: the block at `(b, o + k)`. -/
theorem run_apply (o : ℕ) (ho : o + 128 ≤ 512) (h : S16x512.Slices ![0, o] S16x128) (y : Vec Ideal S16x512 .i32)
    (b : Fin 16) (k : Fin 128) :
    extractStridedSlice S16x128 ![0, o] y h (ix2 b k) = y (ix2 b ⟨o + k.val, by have := k.isLt; omega⟩) :=
  extractStridedSlice_apply ![0, o] y h (ix2 b k) (ix2 b ⟨o + k.val, by have := k.isLt; omega⟩) fun a =>
    match a with
    | ⟨0, _⟩ => by show b.val = 0 + b.val; omega
    | ⟨1, _⟩ => rfl

/-- The four row sums of a row block `x` against the four runs of a row block `y`, added from zero. -/
def acc4 (x y : Vec Ideal S16x512 .i32) : FVec Ideal S16x512 .f32 :=
  addf (addf (addf (addf (broadcast S16x512 (Scalar.ofBits (F := Ideal) .f32 0x00000000#32))
    (rowChunk x (extractStridedSlice S16x128 ![0, 0] y slices_S16x512_o0_0_S16x128)))
    (rowChunk x (extractStridedSlice S16x128 ![0, 128] y slices_S16x512_o0_128_S16x128)))
    (rowChunk x (extractStridedSlice S16x128 ![0, 256] y slices_S16x512_o0_256_S16x128)))
    (rowChunk x (extractStridedSlice S16x128 ![0, 384] y slices_S16x512_o0_384_S16x128))

/-- At `(b, i)` they add up to the number of positions of row `b` of `y` holding the id `x (b, i)`. -/
theorem acc4_apply (x y : Vec Ideal S16x512 .i32) (b : Fin 16) (i : Fin 512) :
    acc4 x y (ix2 b i) = ((occ (x (ix2 b i)) (fun q : Fin 512 => y (ix2 b q)) : ℝ) : EReal) := by
  show Ideal.ofBits .f32 0x00000000#32
      + rowChunk x (extractStridedSlice S16x128 ![0, 0] y slices_S16x512_o0_0_S16x128) (ix2 b i)
      + rowChunk x (extractStridedSlice S16x128 ![0, 128] y slices_S16x512_o0_128_S16x128) (ix2 b i)
      + rowChunk x (extractStridedSlice S16x128 ![0, 256] y slices_S16x512_o0_256_S16x128) (ix2 b i)
      + rowChunk x (extractStridedSlice S16x128 ![0, 384] y slices_S16x512_o0_384_S16x128) (ix2 b i) = _
  rw [rowChunk_apply, rowChunk_apply, rowChunk_apply, rowChunk_apply, Ideal.ofBits_zero_f32]
  simp only [run_apply 0 (by omega), run_apply 128 (by omega), run_apply 256 (by omega), run_apply 384 (by omega)]
  exact chunks_eq_occ (x (ix2 b i)) (fun q : Fin 512 => y (ix2 b q))

/-- A masked table given a leading unit axis, read at `(0, b, i)`: the word-level select at `(b, i)`. -/
theorem masked_apply (cnd : IVec S16x512 1) (z a : FVec Ideal S16x512 .f32) (u : Fin 1) (b : Fin 16) (i : Fin 512) :
    shapeCast S1x16x512 (select cnd z a) shapeCasts_S16x512_S1x16x512 (ix3 u b i)
      = Scalar.select (cnd (ix2 b i)) (z (ix2 b i)) (a (ix2 b i)) :=
  shapeCast_ab_1ab_apply (select cnd z a) shapeCasts_S16x512_S1x16x512 u b i

/-- Four [16, 128] tables laid side by side along the row: position `128 c + k` of row `b` reads table `c` at `(b, k)`. -/
theorem beside4_apply (p0 p1 p2 p3 : FVec Ideal S16x128 .f32) (P : Fin 16 → Fin 512 → EReal)
    (h0 : ∀ (b : Fin 16) (k : Fin 128), p0 (ix2 b k) = P b ⟨0 + k.val, by have := k.isLt; omega⟩)
    (h1 : ∀ (b : Fin 16) (k : Fin 128), p1 (ix2 b k) = P b ⟨128 + k.val, by have := k.isLt; omega⟩)
    (h2 : ∀ (b : Fin 16) (k : Fin 128), p2 (ix2 b k) = P b ⟨256 + k.val, by have := k.isLt; omega⟩)
    (h3 : ∀ (b : Fin 16) (k : Fin 128), p3 (ix2 b k) = P b ⟨384 + k.val, by have := k.isLt; omega⟩)
    (b : Fin 16) (j : Fin 512) :
    concatenate S16x512 1 [⟨S16x128, p0⟩, ⟨S16x128, p1⟩, ⟨S16x128, p2⟩, ⟨S16x128, p3⟩]
        concatenates_S16x128_S16x128_S16x128_S16x128_S16x512_d1 (ix2 b j) = P b j := by
  have hj := j.isLt
  have hoff : ∀ a : Fin 2, ∀ (k : Fin 128), a.cast (rfl : S16x128.rank = S16x512.rank) ≠ (1 : Fin 2) →
      ((ix2 b k : S16x128.Idx) a).val = ((ix2 b j : S16x512.Idx) (a.cast (rfl : S16x128.rank = S16x512.rank))).val :=
    fun a k => match a with
      | ⟨0, _⟩ => fun _ => rfl
      | ⟨1, _⟩ => fun h => absurd rfl h
  by_cases c0 : j.val < 128
  · refine (concatenate_apply_piece (t := S16x512) (1 : Fin 2) [⟨S16x128, p0⟩, ⟨S16x128, p1⟩, ⟨S16x128, p2⟩, ⟨S16x128, p3⟩]
      concatenates_S16x128_S16x128_S16x128_S16x128_S16x512_d1 (ix2 b j)
      0 (by show (0 : ℕ) < 4; omega) S16x128 p0 rfl rfl 0 rfl (ix2 b ⟨j.val - 0, by omega⟩) (hoff · _)
      (by show 0 + (j.val - 0) = j.val; omega)).trans ?_
    rw [h0]; exact congrArg (P b) (Fin.ext (by show 0 + (j.val - 0) = j.val; omega))
  by_cases c1 : j.val < 256
  · refine (concatenate_apply_piece (t := S16x512) (1 : Fin 2) [⟨S16x128, p0⟩, ⟨S16x128, p1⟩, ⟨S16x128, p2⟩, ⟨S16x128, p3⟩]
      concatenates_S16x128_S16x128_S16x128_S16x128_S16x512_d1 (ix2 b j)
      1 (by show (1 : ℕ) < 4; omega) S16x128 p1 rfl rfl 128 rfl (ix2 b ⟨j.val - 128, by omega⟩) (hoff · _)
      (by show 128 + (j.val - 128) = j.val; omega)).trans ?_
    rw [h1]; exact congrArg (P b) (Fin.ext (by show 128 + (j.val - 128) = j.val; omega))
  by_cases c2 : j.val < 384
  · refine (concatenate_apply_piece (t := S16x512) (1 : Fin 2) [⟨S16x128, p0⟩, ⟨S16x128, p1⟩, ⟨S16x128, p2⟩, ⟨S16x128, p3⟩]
      concatenates_S16x128_S16x128_S16x128_S16x128_S16x512_d1 (ix2 b j)
      2 (by show (2 : ℕ) < 4; omega) S16x128 p2 rfl rfl 256 rfl (ix2 b ⟨j.val - 256, by omega⟩) (hoff · _)
      (by show 256 + (j.val - 256) = j.val; omega)).trans ?_
    rw [h2]; exact congrArg (P b) (Fin.ext (by show 256 + (j.val - 256) = j.val; omega))
  · refine (concatenate_apply_piece (t := S16x512) (1 : Fin 2) [⟨S16x128, p0⟩, ⟨S16x128, p1⟩, ⟨S16x128, p2⟩, ⟨S16x128, p3⟩]
      concatenates_S16x128_S16x128_S16x128_S16x128_S16x512_d1 (ix2 b j)
      3 (by show (3 : ℕ) < 4; omega) S16x128 p3 rfl rfl 384 rfl (ix2 b ⟨j.val - 384, by omega⟩) (hoff · _)
      (by show 384 + (j.val - 384) = j.val; omega)).trans ?_
    rw [h3]; exact congrArg (P b) (Fin.ext (by show 384 + (j.val - 384) = j.val; omega))

/-- The four column sums of a row block `x` against the four runs of a row block `y`, side by side. -/
def cols4 (x y : Vec Ideal S16x512 .i32) : FVec Ideal S16x512 .f32 :=
  concatenate S16x512 1
    [⟨S16x128, colChunk x (extractStridedSlice S16x128 ![0, 0] y slices_S16x512_o0_0_S16x128)⟩,
     ⟨S16x128, colChunk x (extractStridedSlice S16x128 ![0, 128] y slices_S16x512_o0_128_S16x128)⟩,
     ⟨S16x128, colChunk x (extractStridedSlice S16x128 ![0, 256] y slices_S16x512_o0_256_S16x128)⟩,
     ⟨S16x128, colChunk x (extractStridedSlice S16x128 ![0, 384] y slices_S16x512_o0_384_S16x128)⟩]
    concatenates_S16x128_S16x128_S16x128_S16x128_S16x512_d1

/-- At `(b, j)` they hold the number of positions of row `b` of `x` holding the id `y (b, j)`. -/
theorem cols4_apply (x y : Vec Ideal S16x512 .i32) (b : Fin 16) (j : Fin 512) :
    cols4 x y (ix2 b j) = ((occ (y (ix2 b j)) (fun q : Fin 512 => x (ix2 b q)) : ℝ) : EReal) := by
  unfold cols4
  refine (beside4_apply _ _ _ _ (fun b j => ∑ i : Fin 512, ((ind (x (ix2 b i)) (y (ix2 b j)) : ℝ) : EReal))
    (fun b k => by rw [colChunk_apply]; simp only [run_apply 0 (by omega)])
    (fun b k => by rw [colChunk_apply]; simp only [run_apply 128 (by omega)])
    (fun b k => by rw [colChunk_apply]; simp only [run_apply 256 (by omega)])
    (fun b k => by rw [colChunk_apply]; simp only [run_apply 384 (by omega)]) b j).trans ?_
  unfold occ
  rw [coe_sum]
  exact Finset.sum_congr rfl fun i _ => by rw [ind_comm]

/-! The body's four count payloads are these tables, masked and given a leading unit axis (the payload definitions unfold
    to exactly these terms). -/

theorem pay_ss_eq (v0 : Vec Ideal S16x512 .i32) :
    k0_pay23 v0 (k0_pay2 v0) (k0_pay17 v0 (k0_pay5 v0) (k0_pay11 v0) (k0_pay12 v0))
      = shapeCast S1x16x512 (select (cmpi .eq v0 (broadcast S16x512 0#32))
          (broadcast S16x512 (Scalar.ofBits (F := Ideal) .f32 0x00000000#32)) (acc4 v0 v0)) shapeCasts_S16x512_S1x16x512 := rfl

theorem pay_sd_eq (v0 v1 : Vec Ideal S16x512 .i32) :
    k0_pay24 v0 v1 (k0_pay2 v0) (k0_pay14 v0 (k0_pay8 v0 v1) (k0_pay10 v1)) (k0_pay20 v0 v1)
      = shapeCast S1x16x512 (select (cmpi .eq v0 (broadcast S16x512 0#32))
          (broadcast S16x512 (Scalar.ofBits (F := Ideal) .f32 0x00000000#32)) (acc4 v0 v1)) shapeCasts_S16x512_S1x16x512 := rfl

theorem pay_ds_eq (v0 v1 : Vec Ideal S16x512 .i32) :
    k0_pay25 v0 v1 (k0_pay3 v1) (k0_pay9 v0 v1) (k0_pay15 v0 (k0_pay10 v1)) (k0_pay19 v0 v1)
      = shapeCast S1x16x512 (select (cmpi .eq v1 (broadcast S16x512 0#32))
          (broadcast S16x512 (Scalar.ofBits (F := Ideal) .f32 0x00000000#32)) (cols4 v0 v1)) shapeCasts_S16x512_S1x16x512 := rfl

theorem pay_dd_eq (v1 : Vec Ideal S16x512 .i32) :
    k0_pay26 v1 (k0_pay3 v1) (k0_pay18 v1 (k0_pay6 v1) (k0_pay10 v1))
      = shapeCast S1x16x512 (select (cmpi .eq v1 (broadcast S16x512 0#32))
          (broadcast S16x512 (Scalar.ofBits (F := Ideal) .f32 0x00000000#32)) (acc4 v1 v1)) shapeCasts_S16x512_S1x16x512 := rfl

/-- A masked count table at `(0, b, i)`, when the table at `(b, i)` is the count of the id `x (b, i)` in a row `y`. -/
theorem masked_count (x : Vec Ideal S16x512 .i32) (a : FVec Ideal S16x512 .f32) (y : Fin 512 → BitVec 32)
    (u : Fin 1) (b : Fin 16) (i : Fin 512) (ha : a (ix2 b i) = ((occ (x (ix2 b i)) y : ℝ) : EReal)) :
    shapeCast S1x16x512 (select (cmpi .eq x (broadcast S16x512 0#32))
        (broadcast S16x512 (Scalar.ofBits (F := Ideal) .f32 0x00000000#32)) a) shapeCasts_S16x512_S1x16x512 (ix3 u b i)
      = mcount (x (ix2 b i)) y := by
  rw [masked_apply, ha]
  rfl

/-- Source id at `(b, i)` counted in the source row, masked. -/
theorem pay_ss_apply (v0 : Vec Ideal S16x512 .i32) (u : Fin 1) (b : Fin 16) (i : Fin 512) :
    k0_pay23 v0 (k0_pay2 v0) (k0_pay17 v0 (k0_pay5 v0) (k0_pay11 v0) (k0_pay12 v0)) (ix3 u b i)
      = mcount (v0 (ix2 b i)) (fun q : Fin 512 => v0 (ix2 b q)) := by
  rw [pay_ss_eq]; exact masked_count v0 _ _ u b i (acc4_apply v0 v0 b i)

/-- Source id at `(b, i)` counted in the destination row, masked. -/
theorem pay_sd_apply (v0 v1 : Vec Ideal S16x512 .i32) (u : Fin 1) (b : Fin 16) (i : Fin 512) :
    k0_pay24 v0 v1 (k0_pay2 v0) (k0_pay14 v0 (k0_pay8 v0 v1) (k0_pay10 v1)) (k0_pay20 v0 v1) (ix3 u b i)
      = mcount (v0 (ix2 b i)) (fun q : Fin 512 => v1 (ix2 b q)) := by
  rw [pay_sd_eq]; exact masked_count v0 _ _ u b i (acc4_apply v0 v1 b i)

/-- Destination id at `(b, i)` counted in the source row, masked. -/
theorem pay_ds_apply (v0 v1 : Vec Ideal S16x512 .i32) (u : Fin 1) (b : Fin 16) (i : Fin 512) :
    k0_pay25 v0 v1 (k0_pay3 v1) (k0_pay9 v0 v1) (k0_pay15 v0 (k0_pay10 v1)) (k0_pay19 v0 v1) (ix3 u b i)
      = mcount (v1 (ix2 b i)) (fun q : Fin 512 => v0 (ix2 b q)) := by
  rw [pay_ds_eq]; exact masked_count v1 _ _ u b i (cols4_apply v0 v1 b i)

/-- Destination id at `(b, i)` counted in the destination row, masked. -/
theorem pay_dd_apply (v1 : Vec Ideal S16x512 .i32) (u : Fin 1) (b : Fin 16) (i : Fin 512) :
    k0_pay26 v1 (k0_pay3 v1) (k0_pay18 v1 (k0_pay6 v1) (k0_pay10 v1)) (ix3 u b i)
      = mcount (v1 (ix2 b i)) (fun q : Fin 512 => v1 (ix2 b q)) := by
  rw [pay_dd_eq]; exact masked_count v1 _ _ u b i (acc4_apply v1 v1 b i)

end Cert.KernelIdeal.Cnt

end
-- ==== Proof.LibPlainDot.lean ====
/-
  Two general facts about sums, used wherever a matrix product is read entry by entry.

  * A product of an [a, K] matrix with a [K, b] matrix on the matrix unit, accumulated into the zero array, has at
    entry (p, q) the value  ∑ k < K, lhs (p, k) · rhs (k, q)  on the extended reals. The dimension numbers enter only
    through four facts about where the contraction reads its operands, each of which is decided by unfolding for a
    literal record: it contracts the left operand's axis 1 with the right operand's axis 0, and carries the output's
    row to the left operand and the output's column to the right one.
  * A sum over  n = a + b + c  consecutive positions is the sum over the first a, plus the sum over the next b, plus
    the sum over the last c. This holds in any commutative monoid, so on the extended reals it needs no finiteness:
    only the order and grouping of the terms change.
-/
import Idealize.ShloMosaic.PureOps.Ideal.Laws
import Idealize.ShloMosaic.Lib.ValueIdx

noncomputable section

namespace Idealize.ShloMosaic.PlainDot

open Idealize.ShloMosaic Idealize.ShloMosaic.ValueIdx

/-- A sum over `a + b + c` consecutive positions, cut into its three consecutive bands. -/
theorem sum_three_bands {M : Type} [AddCommMonoid M] {a b c n : ℕ} (hn : a + b + c = n) (f : Fin n → M) :
    ∑ k : Fin n, f k
      = (∑ k : Fin a, f ⟨k.val, by omega⟩) + (∑ k : Fin b, f ⟨a + k.val, by omega⟩)
        + ∑ k : Fin c, f ⟨a + b + k.val, by omega⟩ := by
  subst hn
  rw [Fin.sum_univ_add, Fin.sum_univ_add]
  rfl

/-- Entry (p, q) of an [a, K] × [K, b] product into the zero accumulator is the sum over the contracted position
    of the row's entry times the column's entry. -/
theorem matmul_zero_ix2 {a K b : ℕ} {φ₁ φ₂ : FTy}
    (d : DotDims (⟨2, ![a, K]⟩ : Shape) (⟨2, ![K, b]⟩ : Shape) (⟨2, ![a, b]⟩ : Shape))
    (hr : d.contr.rank = 1) (hs : d.contr.size ⟨0, by omega⟩ = K)
    (hlc : d.lhsContracting = [1]) (hrc : d.rhsContracting = [0])
    (hl0 : ∀ (j : (⟨2, ![a, b]⟩ : Shape).Idx) (q : d.contr.Idx), (d.lhsIdx j q 0).val = (j 0).val)
    (hr1 : ∀ (j : (⟨2, ![a, b]⟩ : Shape).Idx) (q : d.contr.Idx), (d.rhsIdx j q 1).val = (j 1).val)
    (prec : Option ContractPrecision)
    (lhs : FVec Ideal (⟨2, ![a, K]⟩ : Shape) φ₁) (rhs : FVec Ideal (⟨2, ![K, b]⟩ : Shape) φ₂) (p : Fin a) (q : Fin b) :
    FloatOps.matmul d prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun ax => Fin.ext (by
    match ax with
    | ⟨0, _⟩ => exact hl0 _ _
    | ⟨1, _⟩ => exact (d.lhsIdx_val_of_single hlc _ _).trans hk)
  have er : d.rhsIdx (ix2 p q) ((contrEquiv1 d K hr hs).symm k) = ix2 k q := funext fun ax => Fin.ext (by
    match ax with
    | ⟨0, _⟩ => exact (d.rhsIdx_val_of_single hrc _ _).trans hk
    | ⟨1, _⟩ => exact hr1 _ _)
  rw [el, er]

end Idealize.ShloMosaic.PlainDot

end
-- ==== Proof.KernelEncode.lean ====
/-
  The kernel body's two layers, read at an entry.

  The four tables of counts are stacked into one [4, 16, 512] table `C`. Every count `C (g, b, l)` is sent through the same
  two layers: hidden unit `d` holds `max (C (g, b, l) * w1 d + b1 d) 0`; output feature `e` is the sum over the 64 hidden
  units of the hidden value times the weight `w2 (d, e)`, plus the bias `b2 e` (the product is a [32768, 64] by [64, 64]
  matrix product accumulated into zero, the 32768 rows being the (g, b, l) in row-major order). The block stored is,
  in lanes 0..63, plane 0 plus plane 1 of the result, and in lanes 64..127, plane 2 plus plane 3.
-/
import proofs.«136408_j73701638799824_2_alg».proof.Proof.Gen.KernelIdeal.Skeleton
import proofs.«136408_j73701638799824_2_alg».proof.Proof.Counts
import proofs.«136408_j73701638799824_2_alg».proof.Proof.LibUnitAxes
import proofs.«136408_j73701638799824_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Enc

open Idealize.ShloMosaic Idealize.ShloMosaic.ValueIdx Cert.KernelIdeal Cert.KernelIdeal.Gen Cert.Counts Cert.LibUnitAxes

/-- The hidden layer of every count of the stacked table. -/
def hidden (C : FVec Ideal S4x16x512 .f32) (x2 : FVec Ideal S64x1 .f32) (x3 : FVec Ideal S1x64 .f32) : FVec Ideal S4x16x512x64 .f32 :=
  maximumf
    (addf
      (mulf (broadcastTo S4x16x512x64 (shapeCast S4x16x512x1 C shapeCasts_S4x16x512_S4x16x512x1) broadcasts_S4x16x512x1_S4x16x512x64)
        (broadcastTo S4x16x512x64 (shapeCast S1x1x1x64 (shapeCast S64 x2 shapeCasts_S64x1_S64) shapeCasts_S64_S1x1x1x64) broadcasts_S1x1x1x64_S4x16x512x64))
      (broadcastTo S4x16x512x64 (shapeCast S1x1x1x64 (shapeCast S64 (shapeCast S1x64 x3 shapeCasts_S1x64_S1x64) shapeCasts_S1x64_S64) shapeCasts_S64_S1x1x1x64) broadcasts_S1x1x1x64_S4x16x512x64))
    (broadcast S4x16x512x64 (Scalar.ofBits (F := Ideal) .f32 0x00000000#32))

/-- Hidden unit `d` of the count at `(g, b, l)`. -/
theorem hidden_apply (C : FVec Ideal S4x16x512 .f32) (x2 : FVec Ideal S64x1 .f32) (x3 : FVec Ideal S1x64 .f32)
    (g : Fin 4) (b : Fin 16) (l : Fin 512) (d : Fin 64) :
    hidden C x2 x3 (ix4 g b l d)
      = max (C (ix3 g b l) * x2 (ix2 d (0 : Fin 1)) + x3 (ix2 (0 : Fin 1) d)) (Ideal.ofBits .f32 0x00000000#32) := by
  have e1 : broadcastTo S4x16x512x64 (shapeCast S4x16x512x1 C shapeCasts_S4x16x512_S4x16x512x1) broadcasts_S4x16x512x1_S4x16x512x64 (ix4 g b l d)
      = C (ix3 g b l) :=
    (broadcastTo_abc1_abcd_apply _ broadcasts_S4x16x512x1_S4x16x512x64 g b l d).trans
      (shapeCast_abc_abc1_apply C shapeCasts_S4x16x512_S4x16x512x1 g b l (0 : Fin 1))
  have e2 : broadcastTo S4x16x512x64 (shapeCast S1x1x1x64 (shapeCast S64 x2 shapeCasts_S64x1_S64) shapeCasts_S64_S1x1x1x64) broadcasts_S1x1x1x64_S4x16x512x64 (ix4 g b l d)
      = x2 (ix2 d (0 : Fin 1)) :=
    ((broadcastTo_111d_abcd_apply _ broadcasts_S1x1x1x64_S4x16x512x64 g b l d).trans
      (shapeCast_a_111a_apply _ shapeCasts_S64_S1x1x1x64 (0 : Fin 1) (0 : Fin 1) (0 : Fin 1) d)).trans
      (shapeCast_a1_a_apply x2 shapeCasts_S64x1_S64 d)
  have e3 : broadcastTo S4x16x512x64 (shapeCast S1x1x1x64 (shapeCast S64 (shapeCast S1x64 x3 shapeCasts_S1x64_S1x64) shapeCasts_S1x64_S64) shapeCasts_S64_S1x1x1x64) broadcasts_S1x1x1x64_S4x16x512x64 (ix4 g b l d)
      = x3 (ix2 (0 : Fin 1) d) :=
    (((broadcastTo_111d_abcd_apply _ broadcasts_S1x1x1x64_S4x16x512x64 g b l d).trans
      (shapeCast_a_111a_apply _ shapeCasts_S64_S1x1x1x64 (0 : Fin 1) (0 : Fin 1) (0 : Fin 1) d)).trans
      (shapeCast_1a_a_apply _ shapeCasts_S1x64_S64 d)).trans
      (congrFun (shapeCast_self x3 shapeCasts_S1x64_S1x64) _)
  show max (broadcastTo S4x16x512x64 (shapeCast S4x16x512x1 C shapeCasts_S4x16x512_S4x16x512x1) broadcasts_S4x16x512x1_S4x16x512x64 (ix4 g b l d)
        * broadcastTo S4x16x512x64 (shapeCast S1x1x1x64 (shapeCast S64 x2 shapeCasts_S64x1_S64) shapeCasts_S64_S1x1x1x64) broadcasts_S1x1x1x64_S4x16x512x64 (ix4 g b l d)
      + broadcastTo S4x16x512x64 (shapeCast S1x1x1x64 (shapeCast S64 (shapeCast S1x64 x3 shapeCasts_S1x64_S1x64) shapeCasts_S1x64_S64) shapeCasts_S64_S1x1x1x64) broadcasts_S1x1x1x64_S4x16x512x64 (ix4 g b l d))
      (Ideal.ofBits .f32 0x00000000#32) = _
  rw [e1, e2, e3]

/-- The two layers applied to every count of the stacked table. -/
def encTable (C : FVec Ideal S4x16x512 .f32) (x2 : FVec Ideal S64x1 .f32) (x3 : FVec Ideal S1x64 .f32)
    (x4 : FVec Ideal S64x64 .f32) (x5 : FVec Ideal S1x64 .f32) : FVec Ideal S4x16x512x64 .f32 :=
  shapeCast S4x16x512x64
    (addf
      (matmul dot_S32768x64_S64x64_S32768x64_1_0_0_1_n_n none
        (shapeCast S32768x64 (hidden C x2 x3) shapeCasts_S4x16x512x64_S32768x64)
        (shapeCast S64x64 x4 shapeCasts_S64x64_S64x64)
        (constant S32768x64 .f32 0x00000000#32))
      (broadcastTo S32768x64 (shapeCast S1x64 (shapeCast S64 (shapeCast S1x64 x5 shapeCasts_S1x64_S1x64) shapeCasts_S1x64_S64) shapeCasts_S64_S1x64) broadcasts_S1x64_S32768x64))
    shapeCasts_S32768x64_S4x16x512x64

/-- Where the product reads its operands: the output's row in the left operand, the output's column in the right. -/
theorem dot_lhs0 (j : S32768x64.Idx) (q : dot_S32768x64_S64x64_S32768x64_1_0_0_1_n_n.contr.Idx) :
    (dot_S32768x64_S64x64_S32768x64_1_0_0_1_n_n.lhsIdx j q 0).val = (j 0).val := by
  unfold DotDims.lhsIdx
  rw [dif_neg (show ¬(0 : Fin S32768x64.rank) ∈ dot_S32768x64_S64x64_S32768x64_1_0_0_1_n_n.lhsBatch by decide),
    dif_pos (show (0 : Fin S32768x64.rank) ∈ dot_S32768x64_S64x64_S32768x64_1_0_0_1_n_n.lhsNonContracting by decide)]
  rfl
theorem dot_rhs1 (j : S32768x64.Idx) (q : dot_S32768x64_S64x64_S32768x64_1_0_0_1_n_n.contr.Idx) :
    (dot_S32768x64_S64x64_S32768x64_1_0_0_1_n_n.rhsIdx j q 1).val = (j 1).val := by
  unfold DotDims.rhsIdx
  rw [dif_neg (show ¬(1 : Fin S64x64.rank) ∈ dot_S32768x64_S64x64_S32768x64_1_0_0_1_n_n.rhsBatch by decide),
    dif_pos (show (1 : Fin S64x64.rank) ∈ dot_S32768x64_S64x64_S32768x64_1_0_0_1_n_n.rhsNonContracting by decide)]
  rfl

/-- Output feature `e` of the count at `(g, b, l)`: the two layers of `Counts.enc` with the weights read where the body reads them. -/
theorem encTable_apply (C : FVec Ideal S4x16x512 .f32) (x2 : FVec Ideal S64x1 .f32) (x3 : FVec Ideal S1x64 .f32)
    (x4 : FVec Ideal S64x64 .f32) (x5 : FVec Ideal S1x64 .f32) (g : Fin 4) (b : Fin 16) (l : Fin 512) (e : Fin 64) :
    encTable C x2 x3 x4 x5 (ix4 g b l e)
      = enc (fun d => x2 (ix2 d (0 : Fin 1))) (fun d => x3 (ix2 (0 : Fin 1) d)) (fun e' d => x4 (ix2 d e'))
          (fun e' => x5 (ix2 (0 : Fin 1) e')) (C (ix3 g b l)) e := by
  have hr : (g.val * 16 + b.val) * 512 + l.val < 32768 := by
    have := g.isLt; have := b.isLt; have := l.isLt; omega
  -- the row of the [32768, 64] matrices that (g, b, l) is
  let r : Fin 32768 := ⟨(g.val * 16 + b.val) * 512 + l.val, hr⟩
  have hrow : ∀ (T : FVec Ideal S32768x64 .f32) (e' : Fin 64),
      shapeCast S4x16x512x64 T shapeCasts_S32768x64_S4x16x512x64 (ix4 g b l e') = T (ix2 r e') := fun T e' =>
    shapeCast_apply T shapeCasts_S32768x64_S4x16x512x64 (ix4 g b l e') (ix2 r e') (by
      rw [Shape.rowMajor_val_four, Shape.rowMajor_val_two]
      show ((g.val * 16 + b.val) * 512 + l.val) * 64 + e'.val = ((g.val * 16 + b.val) * 512 + l.val) * 64 + e'.val
      rfl)
  have hrow' : ∀ (T : FVec Ideal S4x16x512x64 .f32) (d : Fin 64),
      shapeCast S32768x64 T shapeCasts_S4x16x512x64_S32768x64 (ix2 r d) = T (ix4 g b l d) := fun T d =>
    shapeCast_apply T shapeCasts_S4x16x512x64_S32768x64 (ix2 r d) (ix4 g b l d) (by
      rw [Shape.rowMajor_val_four, Shape.rowMajor_val_two]
      show ((g.val * 16 + b.val) * 512 + l.val) * 64 + d.val = ((g.val * 16 + b.val) * 512 + l.val) * 64 + d.val
      rfl)
  have hbias : broadcastTo S32768x64 (shapeCast S1x64 (shapeCast S64 (shapeCast S1x64 x5 shapeCasts_S1x64_S1x64) shapeCasts_S1x64_S64) shapeCasts_S64_S1x64) broadcasts_S1x64_S32768x64 (ix2 r e)
      = x5 (ix2 (0 : Fin 1) e) :=
    (((broadcastTo_1b_ab_apply _ broadcasts_S1x64_S32768x64 r e).trans
      (shapeCast_a_1a_apply _ shapeCasts_S64_S1x64 (0 : Fin 1) e)).trans
      (shapeCast_1a_a_apply _ shapeCasts_S1x64_S64 e)).trans
      (congrFun (shapeCast_self x5 shapeCasts_S1x64_S1x64) _)
  have hdot : matmul dot_S32768x64_S64x64_S32768x64_1_0_0_1_n_n none
        (shapeCast S32768x64 (hidden C x2 x3) shapeCasts_S4x16x512x64_S32768x64)
        (shapeCast S64x64 x4 shapeCasts_S64x64_S64x64)
        (constant S32768x64 .f32 0x00000000#32) (ix2 r e)
      = ∑ d : Fin 64, max (C (ix3 g b l) * x2 (ix2 d (0 : Fin 1)) + x3 (ix2 (0 : Fin 1) d)) (Ideal.ofBits .f32 0x00000000#32)
          * x4 (ix2 d e) := by
    refine (PlainDot.matmul_zero_ix2 dot_S32768x64_S64x64_S32768x64_1_0_0_1_n_n rfl rfl rfl rfl dot_lhs0 dot_rhs1 none _ _ r e).trans ?_
    refine Finset.sum_congr rfl fun d _ => ?_
    rw [hrow', hidden_apply, shapeCast_self]
  unfold encTable enc
  rw [hrow]
  show matmul dot_S32768x64_S64x64_S32768x64_1_0_0_1_n_n none
        (shapeCast S32768x64 (hidden C x2 x3) shapeCasts_S4x16x512x64_S32768x64)
        (shapeCast S64x64 x4 shapeCasts_S64x64_S64x64)
        (constant S32768x64 .f32 0x00000000#32) (ix2 r e)
      + broadcastTo S32768x64 (shapeCast S1x64 (shapeCast S64 (shapeCast S1x64 x5 shapeCasts_S1x64_S1x64) shapeCasts_S1x64_S64) shapeCasts_S64_S1x64) broadcasts_S1x64_S32768x64 (ix2 r e) = _
  rw [hdot, hbias]

/-- Plane `o` of a [4, 16, 512, 64] table, as a [16, 512, 64] table. -/
theorem plane_apply (T : FVec Ideal S4x16x512x64 .f32) (o : ℕ) (ho : o < 4) (hs : S4x16x512x64.Slices ![o, 0, 0, 0] S1x16x512x64)
    (b : Fin 16) (l : Fin 512) (e : Fin 64) :
    shapeCast S16x512x64 (extractStridedSlice S1x16x512x64 ![o, 0, 0, 0] T hs) shapeCasts_S1x16x512x64_S16x512x64 (ix3 b l e)
      = T (ix4 (⟨o, ho⟩ : Fin 4) b l e) :=
  (shapeCast_1abc_abc_apply _ shapeCasts_S1x16x512x64_S16x512x64 b l e).trans
    (extractStridedSlice_apply ![o, 0, 0, 0] T hs (ix4 (0 : Fin 1) b l e) (ix4 (⟨o, ho⟩ : Fin 4) b l e) fun a =>
      match a with
      | ⟨0, _⟩ => by show o = o + 0; rfl
      | ⟨1, _⟩ => by show b.val = 0 + b.val; omega
      | ⟨2, _⟩ => by show l.val = 0 + l.val; omega
      | ⟨3, _⟩ => by show e.val = 0 + e.val; omega)

/-- Planes 0 and 1 added, beside planes 2 and 3 added, along the lanes. -/
def lanes (T : FVec Ideal S4x16x512x64 .f32) : FVec Ideal S16x512x128 .f32 :=
  concatenate S16x512x128 2
    [⟨S16x512x64, addf
        (shapeCast S16x512x64 (extractStridedSlice S1x16x512x64 ![0, 0, 0, 0] T slices_S4x16x512x64_o0_0_0_0_S1x16x512x64) shapeCasts_S1x16x512x64_S16x512x64)
        (shapeCast S16x512x64 (extractStridedSlice S1x16x512x64 ![1, 0, 0, 0] T slices_S4x16x512x64_o1_0_0_0_S1x16x512x64) shapeCasts_S1x16x512x64_S16x512x64)⟩,
     ⟨S16x512x64, addf
        (shapeCast S16x512x64 (extractStridedSlice S1x16x512x64 ![2, 0, 0, 0] T slices_S4x16x512x64_o2_0_0_0_S1x16x512x64) shapeCasts_S1x16x512x64_S16x512x64)
        (shapeCast S16x512x64 (extractStridedSlice S1x16x512x64 ![3, 0, 0, 0] T slices_S4x16x512x64_o3_0_0_0_S1x16x512x64) shapeCasts_S1x16x512x64_S16x512x64)⟩]
    concatenates_S16x512x64_S16x512x64_S16x512x128_d2

/-- A lane below 64 reads plane 0 plus plane 1. -/
theorem lanes_lo (T : FVec Ideal S4x16x512x64 .f32) (b : Fin 16) (l : Fin 512) (c : Fin 128) (h : c.val < 64) :
    lanes T (ix3 b l c) = T (ix4 (0 : Fin 4) b l ⟨c.val, h⟩) + T (ix4 (1 : Fin 4) b l ⟨c.val, h⟩) := by
  unfold lanes
  refine (concatenate_pair_apply_left (t := S16x512x128) (s₁ := S16x512x64) (s₂ := S16x512x64) (2 : Fin 3) _ _
    concatenates_S16x512x64_S16x512x64_S16x512x128_d2 (ix3 b l c) rfl
    (ix3 b l (⟨c.val, h⟩ : Fin 64))
    (fun a => match a with | ⟨0, _⟩ => rfl | ⟨1, _⟩ => rfl | ⟨2, _⟩ => rfl)).trans ?_
  show shapeCast S16x512x64 (extractStridedSlice S1x16x512x64 ![0, 0, 0, 0] T slices_S4x16x512x64_o0_0_0_0_S1x16x512x64) shapeCasts_S1x16x512x64_S16x512x64 (ix3 b l (⟨c.val, h⟩ : Fin 64))
      + shapeCast S16x512x64 (extractStridedSlice S1x16x512x64 ![1, 0, 0, 0] T slices_S4x16x512x64_o1_0_0_0_S1x16x512x64) shapeCasts_S1x16x512x64_S16x512x64 (ix3 b l (⟨c.val, h⟩ : Fin 64)) = _
  rw [plane_apply T 0 (by omega), plane_apply T 1 (by omega)]
  rfl

/-- A lane from 64 on reads plane 2 plus plane 3. -/
theorem lanes_hi (T : FVec Ideal S4x16x512x64 .f32) (b : Fin 16) (l : Fin 512) (c : Fin 128) (h : ¬c.val < 64) :
    lanes T (ix3 b l c) = T (ix4 (2 : Fin 4) b l ⟨c.val - 64, by have := c.isLt; omega⟩)
      + T (ix4 (3 : Fin 4) b l ⟨c.val - 64, by have := c.isLt; omega⟩) := by
  unfold lanes
  refine (concatenate_pair_apply_right (t := S16x512x128) (s₁ := S16x512x64) (s₂ := S16x512x64) (2 : Fin 3) _ _
    concatenates_S16x512x64_S16x512x64_S16x512x128_d2 (ix3 b l c) rfl rfl
    (ix3 b l (⟨c.val - 64, by have := c.isLt; omega⟩ : Fin 64))
    (fun a => match a with
      | ⟨0, _⟩ => fun _ => rfl
      | ⟨1, _⟩ => fun _ => rfl
      | ⟨2, _⟩ => fun h' => absurd rfl h')
    (by show c.val - 64 + 64 = c.val; omega)).trans ?_
  show shapeCast S16x512x64 (extractStridedSlice S1x16x512x64 ![2, 0, 0, 0] T slices_S4x16x512x64_o2_0_0_0_S1x16x512x64) shapeCasts_S1x16x512x64_S16x512x64 (ix3 b l (⟨c.val - 64, by have := c.isLt; omega⟩ : Fin 64))
      + shapeCast S16x512x64 (extractStridedSlice S1x16x512x64 ![3, 0, 0, 0] T slices_S4x16x512x64_o3_0_0_0_S1x16x512x64) shapeCasts_S1x16x512x64_S16x512x64 (ix3 b l (⟨c.val - 64, by have := c.isLt; omega⟩ : Fin 64)) = _
  rw [plane_apply T 2 (by omega), plane_apply T 3 (by omega)]
  rfl

set_option maxHeartbeats 2000000 in
/-- The body's stored value is the lanes of the two layers of the four stacked tables. -/
theorem pay1_eq (a b c d : FVec Ideal S1x16x512 .f32) (x2 : FVec Ideal S64x1 .f32) (x3 : FVec Ideal S1x64 .f32)
    (x4 : FVec Ideal S64x64 .f32) (x5 : FVec Ideal S1x64 .f32) :
    k0_pay1 a b c d x2 x3 x4 x5
      = lanes (encTable (concatenate S4x16x512 0 [⟨S1x16x512, a⟩, ⟨S1x16x512, b⟩, ⟨S1x16x512, c⟩, ⟨S1x16x512, d⟩]
          concatenates_S1x16x512_S1x16x512_S1x16x512_S1x16x512_S4x16x512_d0) x2 x3 x4 x5) := by
  unfold k0_pay1 lanes encTable hidden
  rfl

/-- Four [1, 16, 512] tables stacked along a new leading axis: plane `g` reads the `g`-th table. -/
theorem stack4_0 (p0 p1 p2 p3 : FVec Ideal S1x16x512 .f32) (b : Fin 16) (l : Fin 512) :
    concatenate S4x16x512 0 [⟨S1x16x512, p0⟩, ⟨S1x16x512, p1⟩, ⟨S1x16x512, p2⟩, ⟨S1x16x512, p3⟩]
        concatenates_S1x16x512_S1x16x512_S1x16x512_S1x16x512_S4x16x512_d0 (ix3 (0 : Fin 4) b l) = p0 (ix3 (0 : Fin 1) b l) :=
  concatenate_apply_piece (t := S4x16x512) (0 : Fin 3) [⟨S1x16x512, p0⟩, ⟨S1x16x512, p1⟩, ⟨S1x16x512, p2⟩, ⟨S1x16x512, p3⟩]
    concatenates_S1x16x512_S1x16x512_S1x16x512_S1x16x512_S4x16x512_d0 (ix3 (0 : Fin 4) b l)
    0 (by show (0 : ℕ) < 4; omega) S1x16x512 p0 rfl rfl 0 rfl (ix3 (0 : Fin 1) b l)
    (fun a => match a with
      | ⟨0, _⟩ => fun h => absurd rfl h
      | ⟨1, _⟩ => fun _ => rfl
      | ⟨2, _⟩ => fun _ => rfl)
    (by show 0 + 0 = 0; rfl)

theorem stack4_1 (p0 p1 p2 p3 : FVec Ideal S1x16x512 .f32) (b : Fin 16) (l : Fin 512) :
    concatenate S4x16x512 0 [⟨S1x16x512, p0⟩, ⟨S1x16x512, p1⟩, ⟨S1x16x512, p2⟩, ⟨S1x16x512, p3⟩]
        concatenates_S1x16x512_S1x16x512_S1x16x512_S1x16x512_S4x16x512_d0 (ix3 (1 : Fin 4) b l) = p1 (ix3 (0 : Fin 1) b l) :=
  concatenate_apply_piece (t := S4x16x512) (0 : Fin 3) [⟨S1x16x512, p0⟩, ⟨S1x16x512, p1⟩, ⟨S1x16x512, p2⟩, ⟨S1x16x512, p3⟩]
    concatenates_S1x16x512_S1x16x512_S1x16x512_S1x16x512_S4x16x512_d0 (ix3 (1 : Fin 4) b l)
    1 (by show (1 : ℕ) < 4; omega) S1x16x512 p1 rfl rfl 1 rfl (ix3 (0 : Fin 1) b l)
    (fun a => match a with
      | ⟨0, _⟩ => fun h => absurd rfl h
      | ⟨1, _⟩ => fun _ => rfl
      | ⟨2, _⟩ => fun _ => rfl)
    (by show 1 + 0 = 1; rfl)

theorem stack4_2 (p0 p1 p2 p3 : FVec Ideal S1x16x512 .f32) (b : Fin 16) (l : Fin 512) :
    concatenate S4x16x512 0 [⟨S1x16x512, p0⟩, ⟨S1x16x512, p1⟩, ⟨S1x16x512, p2⟩, ⟨S1x16x512, p3⟩]
        concatenates_S1x16x512_S1x16x512_S1x16x512_S1x16x512_S4x16x512_d0 (ix3 (2 : Fin 4) b l) = p2 (ix3 (0 : Fin 1) b l) :=
  concatenate_apply_piece (t := S4x16x512) (0 : Fin 3) [⟨S1x16x512, p0⟩, ⟨S1x16x512, p1⟩, ⟨S1x16x512, p2⟩, ⟨S1x16x512, p3⟩]
    concatenates_S1x16x512_S1x16x512_S1x16x512_S1x16x512_S4x16x512_d0 (ix3 (2 : Fin 4) b l)
    2 (by show (2 : ℕ) < 4; omega) S1x16x512 p2 rfl rfl 2 rfl (ix3 (0 : Fin 1) b l)
    (fun a => match a with
      | ⟨0, _⟩ => fun h => absurd rfl h
      | ⟨1, _⟩ => fun _ => rfl
      | ⟨2, _⟩ => fun _ => rfl)
    (by show 2 + 0 = 2; rfl)

theorem stack4_3 (p0 p1 p2 p3 : FVec Ideal S1x16x512 .f32) (b : Fin 16) (l : Fin 512) :
    concatenate S4x16x512 0 [⟨S1x16x512, p0⟩, ⟨S1x16x512, p1⟩, ⟨S1x16x512, p2⟩, ⟨S1x16x512, p3⟩]
        concatenates_S1x16x512_S1x16x512_S1x16x512_S1x16x512_S4x16x512_d0 (ix3 (3 : Fin 4) b l) = p3 (ix3 (0 : Fin 1) b l) :=
  concatenate_apply_piece (t := S4x16x512) (0 : Fin 3) [⟨S1x16x512, p0⟩, ⟨S1x16x512, p1⟩, ⟨S1x16x512, p2⟩, ⟨S1x16x512, p3⟩]
    concatenates_S1x16x512_S1x16x512_S1x16x512_S1x16x512_S4x16x512_d0 (ix3 (3 : Fin 4) b l)
    3 (by show (3 : ℕ) < 4; omega) S1x16x512 p3 rfl rfl 3 rfl (ix3 (0 : Fin 1) b l)
    (fun a => match a with
      | ⟨0, _⟩ => fun h => absurd rfl h
      | ⟨1, _⟩ => fun _ => rfl
      | ⟨2, _⟩ => fun _ => rfl)
    (by show 3 + 0 = 3; rfl)

end Cert.KernelIdeal.Enc

end
-- ==== Proof.KernelBlock.lean ====
/-
  One block of the kernel's output, entry by entry.

  At a grid point the body holds a block of 16 rows of source ids `x0` and of destination ids `x1` and the weights.
  Entry `(b, l, c)` of the block it stores is, for a lane `c` below 64, the feature `c` of the source id at `(b, l)`
  against rows `b` of the two id blocks, and for a lane from 64 on, the feature `c - 64` of the destination id at
  `(b, l)` against the same two rows (`Counts.rowFeat`): the four masked count tables go through the two layers, and
  the planes are added in pairs and laid along the lanes.
-/
import proofs.«136408_j73701638799824_2_alg».proof.Proof.KernelCounts
import proofs.«136408_j73701638799824_2_alg».proof.Proof.KernelEncode

noncomputable section

namespace Cert.KernelIdeal.Blk

open Idealize.ShloMosaic Idealize.ShloMosaic.ValueIdx Cert.KernelIdeal Cert.KernelIdeal.Gen Cert.Counts

/-- What entry `(b, l, c)` of the stored block is, in terms of the loaded blocks. -/
def blockSpec (x0 x1 : Vec Ideal S16x512 .i32) (x2 : Vec Ideal S64x1 .f32) (x3 : Vec Ideal S1x64 .f32)
    (x4 : Vec Ideal S64x64 .f32) (x5 : Vec Ideal S1x64 .f32) (b : Fin 16) (l : Fin 512) (c : Fin 128) : EReal :=
  laneFeat (fun d => x2 (ix2 d (0 : Fin 1))) (fun d => x3 (ix2 (0 : Fin 1) d)) (fun e d => x4 (ix2 d e))
    (fun e => x5 (ix2 (0 : Fin 1) e)) (x0 (ix2 b l)) (x1 (ix2 b l))
    (fun q : Fin 512 => x0 (ix2 b q)) (fun q : Fin 512 => x1 (ix2 b q)) c

/-- The body's stored value at `(b, l, c)` is that. -/
theorem block_value (x0 x1 : Vec Ideal S16x512 .i32) (x2 : Vec Ideal S64x1 .f32) (x3 : Vec Ideal S1x64 .f32)
    (x4 : Vec Ideal S64x64 .f32) (x5 : Vec Ideal S1x64 .f32) (b : Fin 16) (l : Fin 512) (c : Fin 128) :
    k0_pay1 (k0_pay23 x0 (k0_pay2 x0) (k0_pay17 x0 (k0_pay5 x0) (k0_pay11 x0) (k0_pay12 x0)))
        (k0_pay24 x0 x1 (k0_pay2 x0) (k0_pay14 x0 (k0_pay8 x0 x1) (k0_pay10 x1)) (k0_pay20 x0 x1))
        (k0_pay25 x0 x1 (k0_pay3 x1) (k0_pay9 x0 x1) (k0_pay15 x0 (k0_pay10 x1)) (k0_pay19 x0 x1))
        (k0_pay26 x1 (k0_pay3 x1) (k0_pay18 x1 (k0_pay6 x1) (k0_pay10 x1))) x2 x3 x4 x5 (ix3 b l c)
      = blockSpec x0 x1 x2 x3 x4 x5 b l c := by
  rw [Enc.pay1_eq]
  unfold blockSpec laneFeat
  by_cases h : c.val < 64
  · rw [dif_pos h]
    refine (Enc.lanes_lo _ b l c h).trans ?_
    rw [Enc.encTable_apply, Enc.encTable_apply, Enc.stack4_0, Enc.stack4_1, Cnt.pay_ss_apply, Cnt.pay_sd_apply]
    rfl
  · rw [dif_neg h]
    refine (Enc.lanes_hi _ b l c h).trans ?_
    rw [Enc.encTable_apply, Enc.encTable_apply, Enc.stack4_2, Enc.stack4_3, Cnt.pay_ds_apply, Cnt.pay_dd_apply]
    rfl

end Cert.KernelIdeal.Blk

end
-- ==== Proof.KernelArray.lean ====
/-
  From the blocks to the whole arrays, and the kernel's run.

  The grid has 16 points; point `t` loads rows `16 t .. 16 t + 15` of the two id arrays and the whole of the four weight
  arrays, and writes back rows `16 t .. 16 t + 15` of a [256, 512, 128] array. Its block is, entry by entry, the lanes'
  features of the ids at that row and position against that row of the two id arrays, so the 16 blocks, which tile
  the array, make it one function `fused` of the arrays the region finds. Before the region the host only re-lays two
  bias vectors as [1, 64] rows and transposes the second layer's weights; after it, it cuts lanes 0..63 and lanes
  64..127 out of the fused array: these are the two results.
-/
import proofs.«136408_j73701638799824_2_alg».proof.Proof.Gen.KernelIdeal.Frame
import proofs.«136408_j73701638799824_2_alg».proof.Proof.KernelBlock
import Idealize.ShloMosaic.Lib.Pipeline.Value
import Idealize.ShloMosaic.Lib.ValueLayout
import Idealize.ShloMosaic.Lib.StableHlo.Run

noncomputable section

namespace Cert.KernelIdeal.Arr

open Idealize.ShloMosaic Idealize.ShloMosaic.TcCoe Idealize.ShloMosaic.ValueIdx Idealize.SL.Sem
open Cert.KernelIdeal Cert.KernelIdeal.Gen Cert.Counts
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The region's output array as one function of the arrays the region finds. -/
def fused (X0 X1 : S256x512.Idx → BitVec 32) (W1 : S64x1.Idx → EReal) (B1 : S1x64.Idx → EReal) (W2T : S64x64.Idx → EReal)
    (B2 : S1x64.Idx → EReal) : S256x512x128.Idx → EReal := fun i =>
  laneFeat (fun d => W1 (ix2 d (0 : Fin 1))) (fun d => B1 (ix2 (0 : Fin 1) d)) (fun e d => W2T (ix2 d e))
    (fun e => B2 (ix2 (0 : Fin 1) e))
    (X0 (ix2 (⟨(i 0).val, (i 0).isLt⟩ : Fin 256) (⟨(i 1).val, (i 1).isLt⟩ : Fin 512)))
    (X1 (ix2 (⟨(i 0).val, (i 0).isLt⟩ : Fin 256) (⟨(i 1).val, (i 1).isLt⟩ : Fin 512)))
    (fun q : Fin 512 => X0 (ix2 (⟨(i 0).val, (i 0).isLt⟩ : Fin 256) q))
    (fun q : Fin 512 => X1 (ix2 (⟨(i 0).val, (i 0).isLt⟩ : Fin 256) q)) (⟨(i 2).val, (i 2).isLt⟩ : Fin 128)

/-- The body's stored value at an index of the block, over variables of the block's literal types. -/
theorem block_value_idx (x0 x1 : Vec Ideal S16x512 .i32) (x2 : Vec Ideal S64x1 .f32) (x3 : Vec Ideal S1x64 .f32)
    (x4 : Vec Ideal S64x64 .f32) (x5 : Vec Ideal S1x64 .f32) (y : S16x512x128.Idx) :
    k0_pay1 (k0_pay23 x0 (k0_pay2 x0) (k0_pay17 x0 (k0_pay5 x0) (k0_pay11 x0) (k0_pay12 x0)))
        (k0_pay24 x0 x1 (k0_pay2 x0) (k0_pay14 x0 (k0_pay8 x0 x1) (k0_pay10 x1)) (k0_pay20 x0 x1))
        (k0_pay25 x0 x1 (k0_pay3 x1) (k0_pay9 x0 x1) (k0_pay15 x0 (k0_pay10 x1)) (k0_pay19 x0 x1))
        (k0_pay26 x1 (k0_pay3 x1) (k0_pay18 x1 (k0_pay6 x1) (k0_pay10 x1))) x2 x3 x4 x5 y
      = Blk.blockSpec x0 x1 x2 x3 x4 x5 (⟨(y 0).val, (y 0).isLt⟩ : Fin 16) (⟨(y 1).val, (y 1).isLt⟩ : Fin 512)
          (⟨(y 2).val, (y 2).isLt⟩ : Fin 128) := by
  obtain ⟨b, l, c, rfl⟩ : ∃ (b : Fin 16) (l : Fin 512) (c : Fin 128), y = ix3 b l c := ⟨y 0, y 1, y 2, eq_ix3 y⟩
  exact Blk.block_value x0 x1 x2 x3 x4 x5 b l c

/-- The printed index maps, decided over the grid: the id windows and the output move one block of 16 rows per point,
    the weight windows stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

/-- WHAT POINT `t` WRITES BACK is block `t` of `fused` of the arrays as the region finds them. -/
theorem flushed_eq (c : Dev nD) (t : Fin cfg0.N) :
    (dats m 0 c).flushed 6 t = ((cfg0.win 6).blk t).view.read (Elt Ideal)
      (fused (V m c main_arg0) (V m c main_arg1) (V m c main_arg2) (V m c main_v0) (V m c main_v2) (V m c main_v1)) := by
  show (cfg0.win 6).cut (grid0.coords t) ((dats m 0 c).after 6 t) = _
  rw [after0_6]
  unfold out0_6
  rw [View.canon_unit_zero hz3]
  simp only [View.ld_unit_zero (S := S16x512) hz2, View.ld_unit_zero (S := S64x1) hz2, View.ld_unit_zero (S := S1x64) hz2,
    View.ld_unit_zero (S := S64x64) hz2]
  obtain ⟨e00, e01, e10, e11, e20, e21, e30, e31, e40, e41, e50, e51, e60, e61, e62⟩ := idx_facts t
  have ht : t.val < 16 := by have h := t.isLt; have hN : cfg0.N = 16 := N_0; omega
  funext y
  have hy0 : (y 0).val < 16 := (y 0).isLt
  have hy1 : (y 1).val < 512 := (y 1).isLt
  have hy2 : (y 2).val < 128 := (y 2).isLt
  refine (block_value_idx (iblk m c 0 t) (iblk m c 1 t) (iblk m c 2 t) (iblk m c 3 t) (iblk m c 4 t) (iblk m c 5 t) y).trans ?_
  -- the rows of the id blocks are rows of the id arrays; the weight blocks are the weight arrays
  have h0 : ∀ (b : Fin 16) (q : Fin 512),
      iblk m c 0 t (ix2 b q) = V m c main_arg0 (ix2 (⟨t.val * 16 + b.val, by have := b.isLt; omega⟩ : Fin 256) q) := fun b q => by
    show V m c main_arg0 (((cfg0.win 0).blk t).view.emb (ix2 b q)) = _
    refine congrArg _ (funext fun a => Fin.ext ?_)
    match a with
    | ⟨0, _⟩ => show win0_0.index t (0 : Fin 2) * 16 + 1 * b.val = t.val * 16 + b.val; omega
    | ⟨1, _⟩ => show win0_0.index t (1 : Fin 2) * 512 + 1 * q.val = q.val; omega
  have h1 : ∀ (b : Fin 16) (q : Fin 512),
      iblk m c 1 t (ix2 b q) = V m c main_arg1 (ix2 (⟨t.val * 16 + b.val, by have := b.isLt; omega⟩ : Fin 256) q) := fun b q => by
    show V m c main_arg1 (((cfg0.win 1).blk t).view.emb (ix2 b q)) = _
    refine congrArg _ (funext fun a => Fin.ext ?_)
    match a with
    | ⟨0, _⟩ => show win0_1.index t (0 : Fin 2) * 16 + 1 * b.val = t.val * 16 + b.val; omega
    | ⟨1, _⟩ => show win0_1.index t (1 : Fin 2) * 512 + 1 * q.val = q.val; omega
  have h2 : ∀ z : S64x1.Idx, iblk m c 2 t z = V m c main_arg2 z := fun z => by
    show V m c main_arg2 (((cfg0.win 2).blk t).view.emb z) = _
    refine congrArg _ (funext fun a => Fin.ext ?_)
    match a with
    | ⟨0, _⟩ => show win0_2.index t (0 : Fin 2) * 64 + 1 * (z 0).val = (z 0).val; omega
    | ⟨1, _⟩ => show win0_2.index t (1 : Fin 2) * 1 + 1 * (z 1).val = (z 1).val; omega
  have h3 : ∀ z : S1x64.Idx, iblk m c 3 t z = V m c main_v0 z := fun z => by
    show V m c main_v0 (((cfg0.win 3).blk t).view.emb z) = _
    refine congrArg _ (funext fun a => Fin.ext ?_)
    match a with
    | ⟨0, _⟩ => show win0_3.index t (0 : Fin 2) * 1 + 1 * (z 0).val = (z 0).val; omega
    | ⟨1, _⟩ => show win0_3.index t (1 : Fin 2) * 64 + 1 * (z 1).val = (z 1).val; omega
  have h4 : ∀ z : S64x64.Idx, iblk m c 4 t z = V m c main_v2 z := fun z => by
    show V m c main_v2 (((cfg0.win 4).blk t).view.emb z) = _
    refine congrArg _ (funext fun a => Fin.ext ?_)
    match a with
    | ⟨0, _⟩ => show win0_4.index t (0 : Fin 2) * 64 + 1 * (z 0).val = (z 0).val; omega
    | ⟨1, _⟩ => show win0_4.index t (1 : Fin 2) * 64 + 1 * (z 1).val = (z 1).val; omega
  have h5 : ∀ z : S1x64.Idx, iblk m c 5 t z = V m c main_v1 z := fun z => by
    show V m c main_v1 (((cfg0.win 5).blk t).view.emb z) = _
    refine congrArg _ (funext fun a => Fin.ext ?_)
    match a with
    | ⟨0, _⟩ => show win0_5.index t (0 : Fin 2) * 1 + 1 * (z 0).val = (z 0).val; omega
    | ⟨1, _⟩ => show win0_5.index t (1 : Fin 2) * 64 + 1 * (z 1).val = (z 1).val; omega
  -- the index of the array under the block's index
  have hemb : ((cfg0.win 6).blk t).view.emb y
      = ix3 (⟨t.val * 16 + (y 0).val, by omega⟩ : Fin 256) (⟨(y 1).val, hy1⟩ : Fin 512) (⟨(y 2).val, hy2⟩ : Fin 128) :=
    funext fun a => Fin.ext (by
      match a with
      | ⟨0, _⟩ => show win0_6.index t (0 : Fin 3) * 16 + 1 * (y 0).val = t.val * 16 + (y 0).val; omega
      | ⟨1, _⟩ => show win0_6.index t (1 : Fin 3) * 512 + 1 * (y 1).val = (y 1).val; omega
      | ⟨2, _⟩ => show win0_6.index t (2 : Fin 3) * 128 + 1 * (y 2).val = (y 2).val; omega)
  show _ = fused (V m c main_arg0) (V m c main_arg1) (V m c main_arg2) (V m c main_v0) (V m c main_v2) (V m c main_v1)
      (((cfg0.win 6).blk t).view.emb y)
  rw [hemb]
  unfold Blk.blockSpec fused
  rw [funext (h0 ⟨(y 0).val, hy0⟩), funext (h1 ⟨(y 0).val, hy0⟩), h0, h1, funext h2, funext h3, funext h4, funext h5]

/-- An index of the array is in point `t`'s block iff each coordinate is in the block's range on its axis. -/
theorem mem_blk (t : Fin cfg0.N) (i : S256x512x128.Idx) :
    i ∈ ((cfg0.win 6).blk t).view.set ↔ ∀ a : Fin 3, win0_6.index t a * S16x512x128.size a ≤ (i a).val
      ∧ (i a).val < win0_6.index t a * S16x512x128.size a + S16x512x128.size a := by
  show i ∈ ((View.whole main_v3).slice (win0_6.rect t)).set ↔ _
  rw [View.set_slice_whole, Rect.mem_set_unit]
  exact Iff.rfl

/-- Every index of the array is in the block of the point that holds its row: row `r` is written at point `r / 16`. -/
theorem cover (i : S256x512x128.Idx) :
    ∃ t : Fin cfg0.N, (cfg0.win 6).flush t = true ∧ i ∈ ((cfg0.win 6).blk t).view.set := by
  have hi0 : (i 0).val < 256 := (i 0).isLt
  have hi1 : (i 1).val < 512 := (i 1).isLt
  have hi2 : (i 2).val < 128 := (i 2).isLt
  have hN : cfg0.N = 16 := N_0
  obtain ⟨t, htv⟩ : ∃ t : Fin cfg0.N, t.val = (i 0).val / 16 := ⟨⟨(i 0).val / 16, by rw [hN]; omega⟩, rfl⟩
  obtain ⟨-, -, -, -, -, -, -, -, -, -, -, -, e60, e61, e62⟩ := idx_facts t
  refine ⟨t, flush0_6 t, ?_⟩
  rw [mem_blk]
  intro a
  match a with
  | ⟨0, _⟩ =>
    show win0_6.index t (0 : Fin 3) * 16 ≤ (i 0).val ∧ (i 0).val < win0_6.index t (0 : Fin 3) * 16 + 16
    omega
  | ⟨1, _⟩ =>
    show win0_6.index t (1 : Fin 3) * 512 ≤ (i 1).val ∧ (i 1).val < win0_6.index t (1 : Fin 3) * 512 + 512
    omega
  | ⟨2, _⟩ =>
    show win0_6.index t (2 : Fin 3) * 128 ≤ (i 2).val ∧ (i 2).val < win0_6.index t (2 : Fin 3) * 128 + 128
    omega

/-- THE ARRAY after the region: `fused` of the arrays as the region finds them. -/
theorem final (c : Dev nD) : (dats m 0 c).arrAt 6 cfg0.N
    = fused (V m c main_arg0) (V m c main_arg1) (V m c main_arg2) (V m c main_v0) (V m c main_v2) (V m c main_v1) :=
  (dats m 0 c).arrAt_eq_of_cover 6 _ (fun t _ => flushed_eq m c t) cover

/-! ## The host operations before the region -/

/-- The first layer's bias as the region finds it: the bias vector as a [1, 64] row. -/
theorem V_v0 (c : Dev nD) : (V m c main_v0 : S1x64.Idx → EReal)
    = shapeCast S1x64 (m ((c : Thread nD τ).loc main_arg3)) shapeCasts_S64_S1x64 := by
  show StableHlo.after hostOps0 (fun b => m (c, b)) (Proc.devRef .tc main_v0) = _
  after_results
  rfl

/-- The second layer's bias as the region finds it: the bias vector as a [1, 64] row. -/
theorem V_v1 (c : Dev nD) : (V m c main_v1 : S1x64.Idx → EReal)
    = shapeCast S1x64 (m ((c : Thread nD τ).loc main_arg5)) shapeCasts_S64_S1x64 := by
  show StableHlo.after hostOps0 (fun b => m (c, b)) (Proc.devRef .tc main_v1) = _
  after_results
  rfl

/-- The second layer's weights as the region finds them: transposed. -/
theorem V_v2 (c : Dev nD) : (V m c main_v2 : S64x64.Idx → EReal)
    = transpose S64x64 [1, 0] (m ((c : Thread nD τ).loc main_arg4)) transposes_S64x64_S64x64_1_0 := by
  show StableHlo.after hostOps0 (fun b => m (c, b)) (Proc.devRef .tc main_v2) = _
  after_results

/-! ## The host operations after the region, and the run -/

/-- Lanes 0..63 of `fused` at `(r, l, e)`: the features of the source id. -/
theorem fused_lo (X0 X1 : S256x512.Idx → BitVec 32) (W1 : S64x1.Idx → EReal) (B1 : S1x64.Idx → EReal) (W2T : S64x64.Idx → EReal)
    (B2 : S1x64.Idx → EReal) (r : Fin 256) (l : Fin 512) (e : Fin 64) :
    extractStridedSlice S256x512x64 ![0, 0, 0] (fused X0 X1 W1 B1 W2T B2) slices_S256x512x128_S256x512x64_0_0_0 (ix3 r l e)
      = rowFeat (fun d => W1 (ix2 d (0 : Fin 1))) (fun d => B1 (ix2 (0 : Fin 1) d)) (fun e' d => W2T (ix2 d e'))
          (fun e' => B2 (ix2 (0 : Fin 1) e')) (X0 (ix2 r l)) (fun q : Fin 512 => X0 (ix2 r q)) (fun q : Fin 512 => X1 (ix2 r q)) e := by
  have he : e.val < 64 := e.isLt
  refine (extractStridedSlice_apply ![0, 0, 0] _ slices_S256x512x128_S256x512x64_0_0_0 (ix3 r l e)
    (ix3 r l (⟨e.val, by omega⟩ : Fin 128)) fun a => match a with
      | ⟨0, _⟩ => by show r.val = 0 + r.val; omega
      | ⟨1, _⟩ => by show l.val = 0 + l.val; omega
      | ⟨2, _⟩ => by show e.val = 0 + e.val; omega).trans ?_
  unfold fused laneFeat
  exact dif_pos he

/-- Lanes 64..127 of `fused` at `(r, l, 64 + e)`: the features of the destination id. -/
theorem fused_hi (X0 X1 : S256x512.Idx → BitVec 32) (W1 : S64x1.Idx → EReal) (B1 : S1x64.Idx → EReal) (W2T : S64x64.Idx → EReal)
    (B2 : S1x64.Idx → EReal) (r : Fin 256) (l : Fin 512) (e : Fin 64) :
    extractStridedSlice S256x512x64 ![0, 0, 64] (fused X0 X1 W1 B1 W2T B2) slices_S256x512x128_S256x512x64_0_0_64 (ix3 r l e)
      = rowFeat (fun d => W1 (ix2 d (0 : Fin 1))) (fun d => B1 (ix2 (0 : Fin 1) d)) (fun e' d => W2T (ix2 d e'))
          (fun e' => B2 (ix2 (0 : Fin 1) e')) (X1 (ix2 r l)) (fun q : Fin 512 => X0 (ix2 r q)) (fun q : Fin 512 => X1 (ix2 r q)) e := by
  have he : e.val < 64 := e.isLt
  refine (extractStridedSlice_apply ![0, 0, 64] _ slices_S256x512x128_S256x512x64_0_0_64 (ix3 r l e)
    (ix3 r l (⟨64 + e.val, by omega⟩ : Fin 128)) fun a => match a with
      | ⟨0, _⟩ => by show r.val = 0 + r.val; omega
      | ⟨1, _⟩ => by show l.val = 0 + l.val; omega
      | ⟨2, _⟩ => rfl).trans ?_
  unfold fused laneFeat
  refine (dif_neg (by show ¬(64 + e.val < 64); omega)).trans ?_
  exact congrArg _ (Fin.ext (by show 64 + e.val - 64 = e.val; omega))

/-- With the weights as the region finds them (a bias vector as a row, the second layer's weights transposed), the
    features are those of the argument arrays. -/
theorem feat_args (A2 : S64x1.Idx → EReal) (A3 A5 : S64.Idx → EReal) (A4 : S64x64.Idx → EReal)
    (v : BitVec 32) (row0 row1 : Fin 512 → BitVec 32) (e : Fin 64) :
    rowFeat (fun d => A2 (ix2 d (0 : Fin 1))) (fun d => shapeCast S1x64 A3 shapeCasts_S64_S1x64 (ix2 (0 : Fin 1) d))
        (fun e' d => transpose S64x64 [1, 0] A4 transposes_S64x64_S64x64_1_0 (ix2 d e'))
        (fun e' => shapeCast S1x64 A5 shapeCasts_S64_S1x64 (ix2 (0 : Fin 1) e')) v row0 row1 e
      = rowFeat (fun d => A2 (ix2 d (0 : Fin 1))) (fun d => A3 (ix1 d)) (fun e' d => A4 (ix2 e' d)) (fun e' => A5 (ix1 e'))
          v row0 row1 e := by
  have h3 : (fun d : Fin 64 => shapeCast S1x64 A3 shapeCasts_S64_S1x64 (ix2 (0 : Fin 1) d)) = fun d => A3 (ix1 d) :=
    funext fun d => shapeCast_a_1a_apply A3 shapeCasts_S64_S1x64 (0 : Fin 1) d
  have h5 : (fun e' : Fin 64 => shapeCast S1x64 A5 shapeCasts_S64_S1x64 (ix2 (0 : Fin 1) e')) = fun e' => A5 (ix1 e') :=
    funext fun d => shapeCast_a_1a_apply A5 shapeCasts_S64_S1x64 (0 : Fin 1) d
  have h4 : (fun (e' d : Fin 64) => transpose S64x64 [1, 0] A4 transposes_S64x64_S64x64_1_0 (ix2 d e')) = fun e' d => A4 (ix2 e' d) :=
    funext fun e' => funext fun d => transpose_ix2_apply A4 transposes_S64x64_S64x64_1_0 d e'
  rw [h3, h5, h4]

/-- The fused array after the region, in terms of the argument arrays. -/
theorem final_args (c : Dev nD) : (dats m 0 c).arrAt 6 cfg0.N
    = fused (m ((c : Thread nD τ).loc main_arg0)) (m ((c : Thread nD τ).loc main_arg1)) (m ((c : Thread nD τ).loc main_arg2))
        (shapeCast S1x64 (m ((c : Thread nD τ).loc main_arg3)) shapeCasts_S64_S1x64)
        (transpose S64x64 [1, 0] (m ((c : Thread nD τ).loc main_arg4)) transposes_S64x64_S64x64_1_0)
        (shapeCast S1x64 (m ((c : Thread nD τ).loc main_arg5)) shapeCasts_S64_S1x64) := by
  rw [final m c, V_main_arg0, V_main_arg1, V_main_arg2, V_v0, V_v1, V_v2]

/-- The first result is lanes 0..63 of the fused array: `srcOut` of the arguments. -/
theorem tail_v4 (c : Dev nD) :
    Pipeline.afterTail₀ cfgs (dats m) 0 (V0 m) [hostOps1] c main_v4
      = srcOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  unfold Pipeline.afterTail₀
  show StableHlo.after hostOps1 _ (Proc.devRef .tc main_v4) = _
  after_results
  rw [Pipeline.withArrays_arr spec0 launch0.win.arr_inj c _ _ 6, final_args m c]
  funext i
  obtain ⟨r, l, e, rfl⟩ : ∃ (r : Fin 256) (l : Fin 512) (e : Fin 64), i = ix3 r l e := ⟨i 0, i 1, i 2, eq_ix3 i⟩
  rw [fused_lo, feat_args]
  rfl

/-- The second result is lanes 64..127 of the fused array: `dstOut` of the arguments. -/
theorem tail_v5 (c : Dev nD) :
    Pipeline.afterTail₀ cfgs (dats m) 0 (V0 m) [hostOps1] c main_v5
      = dstOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  unfold Pipeline.afterTail₀
  show StableHlo.after hostOps1 _ (Proc.devRef .tc main_v5) = _
  after_results
  rw [Pipeline.withArrays_arr spec0 launch0.win.arr_inj c _ _ 6, final_args m c]
  funext i
  obtain ⟨r, l, e, rfl⟩ : ∃ (r : Fin 256) (l : Fin 512) (e : Fin 64), i = ix3 r l e := ⟨i 0, i 1, i 2, eq_ix3 i⟩
  rw [fused_hi, feat_args]
  rfl

set_option backward.isDefEq.respectTransparency.types false in
/-- THE KERNEL'S RUN: every weakly fair execution terminates with the two results at `srcOut` and `dstOut` of the argument
    arrays, and the argument arrays unchanged. -/
theorem run : θ_run defs (onTc (τ := τ) (main (F := Ideal))) ⟨m, fun _ => 0, ρ⟩ (fun r => ∀ c : Dev nD,
      r.2.mem ((c.tc : Thread nD τ).loc main_v4)
        = srcOut (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_v5)
        = dstOut (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v4 (Pipeline.mem_restRefs_of main_v4 (by decide) (by decide))).trans (tail_v4 m c),
      ((h c).2 main_v5 (Pipeline.mem_restRefs_of main_v5 (by decide) (by decide))).trans (tail_v5 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.Arr

end
-- ==== Proof.RefEval.lean ====
/-
  The reference's fold of host operations, evaluated at its two results.

  The reference is a straight line of 94 host operations; a run leaves every buffer at the fold of their results over the
  launch contents. Evaluating the fold at a result replaces each buffer by the operation that wrote it, down to the
  arguments. Two of the operations join a pair of arrays along a new last axis; the evaluation does not enter the joined
  pair, so the list is cut just before such an operation: the pair's two arrays are evaluated on the part before the
  cut (nothing is joined on the way to them), the state at the cut is then treated as an unknown that holds those two
  arrays and the arguments, and the part after the cut is evaluated over it. The first result passes through the first
  join only (the source id's pair of counts), the second through the second only (the destination id's pair).
-/
import proofs.«136408_j73701638799824_2_alg».proof.Proof.RefRun
import proofs.«136408_j73701638799824_2_alg».proof.Proof.RefRead

noncomputable section

namespace Cert.ReferenceIdeal.Eval

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-- The fold over a list cut in two is the fold over the second part of the fold over the first. -/
theorem after_append {Val : EltTy → Type} (A B : List (HloOp τ sig Val)) (V : Valuation τ sig Val) :
    after (A ++ B) V = after B (after A V) := by
  induction A generalizing V with
  | nil => rfl
  | cons a A ih => exact ih _

theorem after_split {Val : EltTy → Type} (k : ℕ) (l : List (HloOp τ sig Val)) (V : Valuation τ sig Val) :
    after l V = after (l.drop k) (after (l.take k) V) :=
  (congrArg (fun l' => after l' V) (List.take_append_drop k l).symm).trans (after_append _ _ V)

set_option maxRecDepth 16384 in
set_option maxHeartbeats 8000000 in
theorem after58 (m : (ℓ : Loc nD τ sig) → Buf (Elt Ideal) ℓ) (c : Dev nD) :
    after (ops (F := Ideal)) (launchContents m c) (Proc.devRef .tc main_v58)
      = val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have hA : after ((ops (F := Ideal)).take 34) (launchContents m c) (Proc.devRef .tc main_v28) = val_main_v28 (F := Ideal) (m ((c.tc : Thread nD τ).loc main_arg0)) := by
    simp only [ops, List.take_succ_cons, List.take_zero]
    after_results_simp <;> rfl
  have hB : after ((ops (F := Ideal)).take 34) (launchContents m c) (Proc.devRef .tc main_v29) = val_main_v29 (F := Ideal) (m ((c.tc : Thread nD τ).loc main_arg0)) (m ((c.tc : Thread nD τ).loc main_arg1)) := by
    simp only [ops, List.take_succ_cons, List.take_zero]
    after_results_simp <;> rfl
  have h0 : after ((ops (F := Ideal)).take 34) (launchContents m c) (Proc.devRef .tc main_arg0) = (m ((c.tc : Thread nD τ).loc main_arg0)) := by
    simp only [ops, List.take_succ_cons, List.take_zero]
    after_results_simp <;> rfl
  have h1 : after ((ops (F := Ideal)).take 34) (launchContents m c) (Proc.devRef .tc main_arg1) = (m ((c.tc : Thread nD τ).loc main_arg1)) := by
    simp only [ops, List.take_succ_cons, List.take_zero]
    after_results_simp <;> rfl
  have h2 : after ((ops (F := Ideal)).take 34) (launchContents m c) (Proc.devRef .tc main_arg2) = (m ((c.tc : Thread nD τ).loc main_arg2)) := by
    simp only [ops, List.take_succ_cons, List.take_zero]
    after_results_simp <;> rfl
  have h3 : after ((ops (F := Ideal)).take 34) (launchContents m c) (Proc.devRef .tc main_arg3) = (m ((c.tc : Thread nD τ).loc main_arg3)) := by
    simp only [ops, List.take_succ_cons, List.take_zero]
    after_results_simp <;> rfl
  have h4 : after ((ops (F := Ideal)).take 34) (launchContents m c) (Proc.devRef .tc main_arg4) = (m ((c.tc : Thread nD τ).loc main_arg4)) := by
    simp only [ops, List.take_succ_cons, List.take_zero]
    after_results_simp <;> rfl
  have h5 : after ((ops (F := Ideal)).take 34) (launchContents m c) (Proc.devRef .tc main_arg5) = (m ((c.tc : Thread nD τ).loc main_arg5)) := by
    simp only [ops, List.take_succ_cons, List.take_zero]
    after_results_simp <;> rfl
  rw [after_split 34]
  generalize after ((ops (F := Ideal)).take 34) (launchContents m c) = W at hA hB h0 h1 h2 h3 h4 h5 ⊢
  simp only [ops, List.drop_succ_cons, List.drop_zero]
  after_results_simp
  rw [hA, hB]
  simp only [h0, h1, h2, h3, h4, h5]
  rfl

set_option maxRecDepth 16384 in
set_option maxHeartbeats 8000000 in
theorem after73 (m : (ℓ : Loc nD τ sig) → Buf (Elt Ideal) ℓ) (c : Dev nD) :
    after (ops (F := Ideal)) (launchContents m c) (Proc.devRef .tc main_v73)
      = val_main_v73 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have hA : after ((ops (F := Ideal)).take 38) (launchContents m c) (Proc.devRef .tc main_v32) = val_main_v32 (F := Ideal) (m ((c.tc : Thread nD τ).loc main_arg0)) (m ((c.tc : Thread nD τ).loc main_arg1)) := by
    simp only [ops, List.take_succ_cons, List.take_zero]
    after_results_simp <;> rfl
  have hB : after ((ops (F := Ideal)).take 38) (launchContents m c) (Proc.devRef .tc main_v33) = val_main_v33 (F := Ideal) (m ((c.tc : Thread nD τ).loc main_arg1)) := by
    simp only [ops, List.take_succ_cons, List.take_zero]
    after_results_simp <;> rfl
  have h0 : after ((ops (F := Ideal)).take 38) (launchContents m c) (Proc.devRef .tc main_arg0) = (m ((c.tc : Thread nD τ).loc main_arg0)) := by
    simp only [ops, List.take_succ_cons, List.take_zero]
    after_results_simp <;> rfl
  have h1 : after ((ops (F := Ideal)).take 38) (launchContents m c) (Proc.devRef .tc main_arg1) = (m ((c.tc : Thread nD τ).loc main_arg1)) := by
    simp only [ops, List.take_succ_cons, List.take_zero]
    after_results_simp <;> rfl
  have h2 : after ((ops (F := Ideal)).take 38) (launchContents m c) (Proc.devRef .tc main_arg2) = (m ((c.tc : Thread nD τ).loc main_arg2)) := by
    simp only [ops, List.take_succ_cons, List.take_zero]
    after_results_simp <;> rfl
  have h3 : after ((ops (F := Ideal)).take 38) (launchContents m c) (Proc.devRef .tc main_arg3) = (m ((c.tc : Thread nD τ).loc main_arg3)) := by
    simp only [ops, List.take_succ_cons, List.take_zero]
    after_results_simp <;> rfl
  have h4 : after ((ops (F := Ideal)).take 38) (launchContents m c) (Proc.devRef .tc main_arg4) = (m ((c.tc : Thread nD τ).loc main_arg4)) := by
    simp only [ops, List.take_succ_cons, List.take_zero]
    after_results_simp <;> rfl
  have h5 : after ((ops (F := Ideal)).take 38) (launchContents m c) (Proc.devRef .tc main_arg5) = (m ((c.tc : Thread nD τ).loc main_arg5)) := by
    simp only [ops, List.take_succ_cons, List.take_zero]
    after_results_simp <;> rfl
  rw [after_split 38]
  generalize after ((ops (F := Ideal)).take 38) (launchContents m c) = W at hA hB h0 h1 h2 h3 h4 h5 ⊢
  simp only [ops, List.drop_succ_cons, List.drop_zero]
  after_results_simp
  rw [hA, hB]
  simp only [h0, h1, h2, h3, h4, h5]
  rfl

set_option maxRecDepth 16384 in
set_option maxHeartbeats 8000000 in
/-- No operation writes an argument array: the fold leaves it at its launch contents. -/
theorem after_arg (m : (ℓ : Loc nD τ sig) → Buf (Elt Ideal) ℓ) (c : Dev nD) :
    after (ops (F := Ideal)) (launchContents m c) (Proc.devRef .tc main_arg0) = (m ((c.tc : Thread nD τ).loc main_arg0))
    ∧     after (ops (F := Ideal)) (launchContents m c) (Proc.devRef .tc main_arg1) = (m ((c.tc : Thread nD τ).loc main_arg1))
    ∧     after (ops (F := Ideal)) (launchContents m c) (Proc.devRef .tc main_arg2) = (m ((c.tc : Thread nD τ).loc main_arg2))
    ∧     after (ops (F := Ideal)) (launchContents m c) (Proc.devRef .tc main_arg3) = (m ((c.tc : Thread nD τ).loc main_arg3))
    ∧     after (ops (F := Ideal)) (launchContents m c) (Proc.devRef .tc main_arg4) = (m ((c.tc : Thread nD τ).loc main_arg4))
    ∧     after (ops (F := Ideal)) (launchContents m c) (Proc.devRef .tc main_arg5) = (m ((c.tc : Thread nD τ).loc main_arg5)) := by
  refine ⟨?_, ?_, ?_, ?_, ?_, ?_⟩ <;> (after_results_simp <;> rfl)

/-- THE REFERENCE'S RUN: every weakly fair execution terminates with the two results at the named stages' last values of
    the argument arrays, and the argument arrays unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v58) = val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v73) = val_main_v73 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v58).trans (after58 m c), (h c main_v73).trans (after73 m c),
      (h c main_arg0).trans (after_arg m c).1, (h c main_arg1).trans (after_arg m c).2.1,
      (h c main_arg2).trans (after_arg m c).2.2.1, (h c main_arg3).trans (after_arg m c).2.2.2.1,
      (h c main_arg4).trans (after_arg m c).2.2.2.2.1, (h c main_arg5).trans (after_arg m c).2.2.2.2.2⟩)
    (run_raw (F := Ideal) m ρ)

end Cert.ReferenceIdeal.Eval

end
-- ==== Proof.RefValue.lean ====
/-
  The reference's two results, read at an entry.

  The reference compares every id of a row with every id of a row in one [256, 512, 512] table of 0/1 words, adds the
  table up along its last axis as 32-bit words (four such tables: source against source, source against destination,
  destination against source, destination against destination), pairs the totals, converts them, replaces them by
  zero where the id is the padding id 0, and sends each of the pair through the two layers, adding the pair's two
  results. So result `(r, l, e)` is `rowFeat` of the id at `(r, l)` against row `r` of the sources and row `r` of the
  destinations: the first result for the source id, the second for the destination id.
-/
import proofs.«136408_j73701638799824_2_alg».proof.Proof.RefRead
import proofs.«136408_j73701638799824_2_alg».proof.Proof.Counts
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.ReferenceIdeal.RefValue

open Idealize.ShloMosaic Idealize.ShloMosaic.ValueIdx Cert.ReferenceIdeal Cert.ReferenceIdeal.Gen Cert.ReferenceIdeal.ReadP Cert.Counts

/-- Two indices of a [256, 512] array with the same coordinates are the same index. -/
theorem idx2_ext (f g : S256x512.Idx) (h0 : (f 0).val = (g 0).val) (h1 : (f 1).val = (g 1).val) : f = g :=
  funext fun a => Fin.ext (by match a with | ⟨0, _⟩ => exact h0 | ⟨1, _⟩ => exact h1)

theorem red512 : S256x512x512.Reduces [2] S256x512 := by decide

theorem lift512 (r : Fin 256) (l : Fin 512) (q : Fin 512) : red512.lift (ix2 r l) q = ix3 r l q := by
  funext a; apply Fin.ext
  match a with
  | ⟨0, _⟩ => rfl
  | ⟨1, _⟩ => rfl
  | ⟨2, _⟩ => rfl

/-- A table of widened comparison bits `[X (r, l) = Y (r, q)]`, added up along `q` as words from the zero word and
    converted, is the number of positions of row `r` of `Y` holding the id `X (r, l)`. -/
theorem count_of_reduce (E : S256x512x512.Idx → BitVec 32) (X Y : S256x512.Idx → BitVec 32)
    (hE : ∀ (r : Fin 256) (l q : Fin 512), E (ix3 r l q) = (IntOp.cmpi .eq (X (ix2 r l)) (Y (ix2 r q))).setWidth 32)
    (cz : S_.Idx → BitVec 32) (hc : ∀ i, cz i = 0#32) (r : Fin 256) (l : Fin 512) :
    FloatOps.sitofp (F := Ideal) .f32 (Host.reduce IntOp.addi E cz reducesTo_S256x512x512_S256x512_d2 h_S_ (ix2 r l))
      = ((occ (X (ix2 r l)) (fun q : Fin 512 => Y (ix2 r q)) : ℝ) : EReal) := by
  rw [Host.reduce_eq_fold_single IntOp.addi E cz reducesTo_S256x512x512_S256x512_d2 red512 h_S_ (ix2 r l), hc]
  have hfun : (E ∘ red512.lift (ix2 r l)) = fun q : Fin 512 => (IntOp.cmpi .eq (X (ix2 r l)) (Y (ix2 r q))).setWidth 32 :=
    funext fun q => (congrArg E (lift512 r l q)).trans (hE r l q)
  rw [hfun]
  exact sitofp_fold_eq_occ (by norm_num) _ _

/-- The four word-level totals, converted: source in source, source in destination, destination in source,
    destination in destination. -/
theorem count_v6 (x0 : S256x512.Idx → BitVec 32) (r : Fin 256) (l : Fin 512) :
    FloatOps.sitofp (F := Ideal) .f32 (val_main_v6 (F := Ideal) x0 (ix2 r l))
      = ((occ (x0 (ix2 r l)) (fun q : Fin 512 => x0 (ix2 r q)) : ℝ) : EReal) := by
  unfold val_main_v6
  refine count_of_reduce _ x0 x0 (fun r l q => ?_) _ (fun _ => rfl) r l
  rw [val_main_v5_apply, val_main_v4_apply, val_main_v2_apply, val_main_v0_apply, val_main_v3_apply, val_main_v1_apply]
  rw [idx2_ext (idx_main_v0 (idx_main_v2 (ix3 r l q))) (ix2 r l) rfl rfl,
    idx2_ext (idx_main_v1 (idx_main_v3 (ix3 r l q))) (ix2 r q) rfl rfl]

theorem count_v13 (x0 x1 : S256x512.Idx → BitVec 32) (r : Fin 256) (l : Fin 512) :
    FloatOps.sitofp (F := Ideal) .f32 (val_main_v13 (F := Ideal) x0 x1 (ix2 r l))
      = ((occ (x0 (ix2 r l)) (fun q : Fin 512 => x1 (ix2 r q)) : ℝ) : EReal) := by
  unfold val_main_v13
  refine count_of_reduce _ x0 x1 (fun r l q => ?_) _ (fun _ => rfl) r l
  rw [val_main_v12_apply, val_main_v11_apply, val_main_v9_apply, val_main_v7_apply, val_main_v10_apply, val_main_v8_apply]
  rw [idx2_ext (idx_main_v7 (idx_main_v9 (ix3 r l q))) (ix2 r l) rfl rfl,
    idx2_ext (idx_main_v8 (idx_main_v10 (ix3 r l q))) (ix2 r q) rfl rfl]

theorem count_v20 (x0 x1 : S256x512.Idx → BitVec 32) (r : Fin 256) (l : Fin 512) :
    FloatOps.sitofp (F := Ideal) .f32 (val_main_v20 (F := Ideal) x0 x1 (ix2 r l))
      = ((occ (x1 (ix2 r l)) (fun q : Fin 512 => x0 (ix2 r q)) : ℝ) : EReal) := by
  unfold val_main_v20
  refine count_of_reduce _ x1 x0 (fun r l q => ?_) _ (fun _ => rfl) r l
  rw [val_main_v19_apply, val_main_v18_apply, val_main_v16_apply, val_main_v14_apply, val_main_v17_apply, val_main_v15_apply]
  rw [idx2_ext (idx_main_v14 (idx_main_v16 (ix3 r l q))) (ix2 r l) rfl rfl,
    idx2_ext (idx_main_v15 (idx_main_v17 (ix3 r l q))) (ix2 r q) rfl rfl]

theorem count_v27 (x1 : S256x512.Idx → BitVec 32) (r : Fin 256) (l : Fin 512) :
    FloatOps.sitofp (F := Ideal) .f32 (val_main_v27 (F := Ideal) x1 (ix2 r l))
      = ((occ (x1 (ix2 r l)) (fun q : Fin 512 => x1 (ix2 r q)) : ℝ) : EReal) := by
  unfold val_main_v27
  refine count_of_reduce _ x1 x1 (fun r l q => ?_) _ (fun _ => rfl) r l
  rw [val_main_v26_apply, val_main_v25_apply, val_main_v23_apply, val_main_v21_apply, val_main_v24_apply, val_main_v22_apply]
  rw [idx2_ext (idx_main_v21 (idx_main_v23 (ix3 r l q))) (ix2 r l) rfl rfl,
    idx2_ext (idx_main_v22 (idx_main_v24 (ix3 r l q))) (ix2 r q) rfl rfl]

/-- A pair of [256, 512] word tables joined on a new last axis: slot 0 reads the first, slot 1 the second. -/
theorem pair_apply (A B : S256x512.Idx → BitVec 32) (r : Fin 256) (l : Fin 512) :
    concatenate S256x512x2 2
        [⟨S256x512x1, broadcastInDim S256x512x1 ![0, 1] bcast_S256x512_S256x512x1_0_1 A⟩,
         ⟨S256x512x1, broadcastInDim S256x512x1 ![0, 1] bcast_S256x512_S256x512x1_0_1 B⟩]
        concatenates_S256x512x1_S256x512x1_S256x512x2_d2 (ix3 r l (0 : Fin 2)) = A (ix2 r l)
    ∧ concatenate S256x512x2 2
        [⟨S256x512x1, broadcastInDim S256x512x1 ![0, 1] bcast_S256x512_S256x512x1_0_1 A⟩,
         ⟨S256x512x1, broadcastInDim S256x512x1 ![0, 1] bcast_S256x512_S256x512x1_0_1 B⟩]
        concatenates_S256x512x1_S256x512x1_S256x512x2_d2 (ix3 r l (1 : Fin 2)) = B (ix2 r l) := by
  have hb : ∀ (Z : S256x512.Idx → BitVec 32),
      broadcastInDim S256x512x1 ![0, 1] bcast_S256x512_S256x512x1_0_1 Z (ix3 r l (0 : Fin 1)) = Z (ix2 r l) := fun Z =>
    broadcastInDim_apply _ bcast_S256x512_S256x512x1_0_1 Z (ix3 r l (0 : Fin 1)) (ix2 r l) (fun a => match a with
      | ⟨0, _⟩ => by show r.val = if (256 : Nat) = 1 then 0 else r.val; rw [if_neg (by decide)]
      | ⟨1, _⟩ => by show l.val = if (512 : Nat) = 1 then 0 else l.val; rw [if_neg (by decide)])
  constructor
  · refine (concatenate_pair_apply_left (t := S256x512x2) (s₁ := S256x512x1) (s₂ := S256x512x1) (2 : Fin 3) _ _
      concatenates_S256x512x1_S256x512x1_S256x512x2_d2 (ix3 r l (0 : Fin 2)) rfl
      (ix3 r l (0 : Fin 1)) (fun a => match a with | ⟨0, _⟩ => rfl | ⟨1, _⟩ => rfl | ⟨2, _⟩ => rfl)).trans (hb A)
  · refine (concatenate_pair_apply_right (t := S256x512x2) (s₁ := S256x512x1) (s₂ := S256x512x1) (2 : Fin 3) _ _
      concatenates_S256x512x1_S256x512x1_S256x512x2_d2 (ix3 r l (1 : Fin 2)) rfl rfl
      (ix3 r l (0 : Fin 1)) (fun a => match a with
        | ⟨0, _⟩ => fun _ => rfl
        | ⟨1, _⟩ => fun _ => rfl
        | ⟨2, _⟩ => fun h => absurd rfl h)
      (by show 0 + 1 = 1; rfl)).trans (hb B)

/-- Two indices with the same coordinates are the same index (ranks 1 to 4). -/
theorem ext1 {d : Fin 1 → ℕ} (f g : (⟨1, d⟩ : Shape).Idx) (h0 : (f 0).val = (g 0).val) : f = g :=
  funext fun a => Fin.ext (by match a with | ⟨0, _⟩ => exact h0)
theorem ext2 {d : Fin 2 → ℕ} (f g : (⟨2, d⟩ : Shape).Idx) (h0 : (f 0).val = (g 0).val) (h1 : (f 1).val = (g 1).val) : f = g :=
  funext fun a => Fin.ext (by match a with | ⟨0, _⟩ => exact h0 | ⟨1, _⟩ => exact h1)
theorem ext3 {d : Fin 3 → ℕ} (f g : (⟨3, d⟩ : Shape).Idx) (h0 : (f 0).val = (g 0).val) (h1 : (f 1).val = (g 1).val)
    (h2 : (f 2).val = (g 2).val) : f = g :=
  funext fun a => Fin.ext (by match a with | ⟨0, _⟩ => exact h0 | ⟨1, _⟩ => exact h1 | ⟨2, _⟩ => exact h2)
theorem ext4 {d : Fin 4 → ℕ} (f g : (⟨4, d⟩ : Shape).Idx) (h0 : (f 0).val = (g 0).val) (h1 : (f 1).val = (g 1).val)
    (h2 : (f 2).val = (g 2).val) (h3 : (f 3).val = (g 3).val) : f = g :=
  funext fun a => Fin.ext (by match a with | ⟨0, _⟩ => exact h0 | ⟨1, _⟩ => exact h1 | ⟨2, _⟩ => exact h2 | ⟨3, _⟩ => exact h3)

variable (x0 x1 : (⟨S256x512, .i32⟩ : BufTy).Contents (Elt Ideal)) (x2 : (⟨S64x1, .f32⟩ : BufTy).Contents (Elt Ideal))
  (x3 : (⟨S64, .f32⟩ : BufTy).Contents (Elt Ideal)) (x4 : (⟨S64x64, .f32⟩ : BufTy).Contents (Elt Ideal))
  (x5 : (⟨S64, .f32⟩ : BufTy).Contents (Elt Ideal))

/-- The masked pair of the source id: its count in the source row, and in the destination row. -/
theorem v39_0 (r : Fin 256) (l : Fin 512) :
    val_main_v39 (F := Ideal) x0 x1 (ix3 r l (0 : Fin 2)) = mcount (x0 (ix2 r l)) (fun q : Fin 512 => x0 (ix2 r q)) := by
  rw [val_main_v39_apply, val_main_call0_v1_apply, val_main_v38_apply, val_main_v37_apply, val_main_v36_apply, val_main_c_3_apply,
    val_main_call0_v2_apply, val_main_call0_v0_apply, val_main_cst_apply, val_main_v31_apply]
  unfold val_main_v30 val_main_v28 val_main_v29
  rw [(pair_apply (val_main_v6 (F := Ideal) x0) (val_main_v13 (F := Ideal) x0 x1) r l).1, count_v6,
    ext2 (idx_main_v38 (idx_main_call0_v1 (ix3 r l (0 : Fin 2)))) (ix2 r l) rfl rfl]
  rfl
theorem v39_1 (r : Fin 256) (l : Fin 512) :
    val_main_v39 (F := Ideal) x0 x1 (ix3 r l (1 : Fin 2)) = mcount (x0 (ix2 r l)) (fun q : Fin 512 => x1 (ix2 r q)) := by
  rw [val_main_v39_apply, val_main_call0_v1_apply, val_main_v38_apply, val_main_v37_apply, val_main_v36_apply, val_main_c_3_apply,
    val_main_call0_v2_apply, val_main_call0_v0_apply, val_main_cst_apply, val_main_v31_apply]
  unfold val_main_v30 val_main_v28 val_main_v29
  rw [(pair_apply (val_main_v6 (F := Ideal) x0) (val_main_v13 (F := Ideal) x0 x1) r l).2, count_v13,
    ext2 (idx_main_v38 (idx_main_call0_v1 (ix3 r l (1 : Fin 2)))) (ix2 r l) rfl rfl]
  rfl

/-- The masked pair of the destination id: its count in the source row, and in the destination row. -/
theorem v43_0 (r : Fin 256) (l : Fin 512) :
    val_main_v43 (F := Ideal) x0 x1 (ix3 r l (0 : Fin 2)) = mcount (x1 (ix2 r l)) (fun q : Fin 512 => x0 (ix2 r q)) := by
  rw [val_main_v43_apply, val_main_call1_v1_apply, val_main_v42_apply, val_main_v41_apply, val_main_v40_apply, val_main_c_4_apply,
    val_main_call1_v2_apply, val_main_call1_v0_apply, val_main_cst_5_apply, val_main_v35_apply]
  unfold val_main_v34 val_main_v32 val_main_v33
  rw [(pair_apply (val_main_v20 (F := Ideal) x0 x1) (val_main_v27 (F := Ideal) x1) r l).1, count_v20,
    ext2 (idx_main_v42 (idx_main_call1_v1 (ix3 r l (0 : Fin 2)))) (ix2 r l) rfl rfl]
  rfl
theorem v43_1 (r : Fin 256) (l : Fin 512) :
    val_main_v43 (F := Ideal) x0 x1 (ix3 r l (1 : Fin 2)) = mcount (x1 (ix2 r l)) (fun q : Fin 512 => x1 (ix2 r q)) := by
  rw [val_main_v43_apply, val_main_call1_v1_apply, val_main_v42_apply, val_main_v41_apply, val_main_v40_apply, val_main_c_4_apply,
    val_main_call1_v2_apply, val_main_call1_v0_apply, val_main_cst_5_apply, val_main_v35_apply]
  unfold val_main_v34 val_main_v32 val_main_v33
  rw [(pair_apply (val_main_v20 (F := Ideal) x0 x1) (val_main_v27 (F := Ideal) x1) r l).2, count_v27,
    ext2 (idx_main_v42 (idx_main_call1_v1 (ix3 r l (1 : Fin 2)))) (ix2 r l) rfl rfl]
  rfl

/-- Hidden unit `d` of slot `k` of the source pair, and of the destination pair. -/
theorem hidden53 (r : Fin 256) (l : Fin 512) (k : Fin 2) (d : Fin 64) :
    val_main_v53 (F := Ideal) x0 x1 x2 x3 (ix4 r l k d)
      = max (val_main_v39 (F := Ideal) x0 x1 (ix3 r l k) * x2 (ix2 d (0 : Fin 1)) + x3 (ix1 d)) (Ideal.ofBits .f32 0x00000000#32) := by
  rw [val_main_v53_apply, val_main_v52_apply, val_main_v49_apply, val_main_v47_apply, val_main_v44_apply, val_main_v48_apply,
    val_main_v46_apply, val_main_v45_apply, val_main_v51_apply, val_main_v50_apply, val_main_call2_v0_apply, val_main_call2_cst_apply]
  rw [ext3 (idx_main_v44 (idx_main_v47 (ix4 r l k d))) (ix3 r l k) rfl rfl rfl,
    ext2 (idx_main_v45 (idx_main_v46 (idx_main_v48 (ix4 r l k d)))) (ix2 d (0 : Fin 1)) (Nat.div_one _) rfl,
    ext1 (idx_main_v50 (idx_main_v51 (ix4 r l k d))) (ix1 d) rfl]
  rfl
theorem hidden68 (r : Fin 256) (l : Fin 512) (k : Fin 2) (d : Fin 64) :
    val_main_v68 (F := Ideal) x0 x1 x2 x3 (ix4 r l k d)
      = max (val_main_v43 (F := Ideal) x0 x1 (ix3 r l k) * x2 (ix2 d (0 : Fin 1)) + x3 (ix1 d)) (Ideal.ofBits .f32 0x00000000#32) := by
  rw [val_main_v68_apply, val_main_v67_apply, val_main_v64_apply, val_main_v62_apply, val_main_v59_apply, val_main_v63_apply,
    val_main_v61_apply, val_main_v60_apply, val_main_v66_apply, val_main_v65_apply, val_main_call3_v0_apply, val_main_call3_cst_apply]
  rw [ext3 (idx_main_v59 (idx_main_v62 (ix4 r l k d))) (ix3 r l k) rfl rfl rfl,
    ext2 (idx_main_v60 (idx_main_v61 (idx_main_v63 (ix4 r l k d)))) (ix2 d (0 : Fin 1)) (Nat.div_one _) rfl,
    ext1 (idx_main_v65 (idx_main_v66 (ix4 r l k d))) (ix1 d) rfl]
  rfl

/-- Output feature `e` of slot `k`: the two layers of the slot's masked count. -/
theorem enc57 (r : Fin 256) (l : Fin 512) (k : Fin 2) (e : Fin 64) :
    val_main_v57 (F := Ideal) x0 x1 x2 x3 x4 x5 (ix4 r l k e)
      = enc (fun d => x2 (ix2 d (0 : Fin 1))) (fun d => x3 (ix1 d)) (fun e' d => x4 (ix2 e' d)) (fun e' => x5 (ix1 e'))
          (val_main_v39 (F := Ideal) x0 x1 (ix3 r l k)) e := by
  rw [val_main_v57_apply, val_main_v54_apply, val_main_v56_apply, val_main_v55_apply]
  unfold enc
  rw [ext1 (idx_main_v55 (idx_main_v56 (ix4 r l k e))) (ix1 e) rfl]
  show (∑ d : Fin 64, _) + x5 (ix1 e) = _
  refine congrArg (· + x5 (ix1 e)) (Finset.sum_congr rfl fun d _ => ?_)
  rw [ext4 (lidx_main_v54 (ix4 r l k e) d) (ix4 r l k d) rfl rfl rfl rfl, ext2 (ridx_main_v54 (ix4 r l k e) d) (ix2 e d) rfl rfl,
    hidden53]
theorem enc72 (r : Fin 256) (l : Fin 512) (k : Fin 2) (e : Fin 64) :
    val_main_v72 (F := Ideal) x0 x1 x2 x3 x4 x5 (ix4 r l k e)
      = enc (fun d => x2 (ix2 d (0 : Fin 1))) (fun d => x3 (ix1 d)) (fun e' d => x4 (ix2 e' d)) (fun e' => x5 (ix1 e'))
          (val_main_v43 (F := Ideal) x0 x1 (ix3 r l k)) e := by
  rw [val_main_v72_apply, val_main_v69_apply, val_main_v71_apply, val_main_v70_apply]
  unfold enc
  rw [ext1 (idx_main_v70 (idx_main_v71 (ix4 r l k e))) (ix1 e) rfl]
  show (∑ d : Fin 64, _) + x5 (ix1 e) = _
  refine congrArg (· + x5 (ix1 e)) (Finset.sum_congr rfl fun d _ => ?_)
  rw [ext4 (lidx_main_v69 (ix4 r l k e) d) (ix4 r l k d) rfl rfl rfl rfl, ext2 (ridx_main_v69 (ix4 r l k e) d) (ix2 e d) rfl rfl,
    hidden68]

/-- THE REFERENCE'S RESULTS are `srcOut` and `dstOut` of its arguments: the pair's two slots, added from zero. -/
theorem result58 : val_main_v58 (F := Ideal) x0 x1 x2 x3 x4 x5 = srcOut x0 x1 x2 x3 x4 x5 := by
  funext i
  obtain ⟨r, l, e, rfl⟩ : ∃ (r : Fin 256) (l : Fin 512) (e : Fin 64), i = ix3 r l e := ⟨i 0, i 1, i 2, eq_ix3 i⟩
  rw [val_main_v58_apply, val_main_cst_6_apply, Fin.sum_univ_two,
    ext4 (idx_main_v58 (ix3 r l e) 0) (ix4 r l (0 : Fin 2) e) rfl rfl rfl rfl,
    ext4 (idx_main_v58 (ix3 r l e) 1) (ix4 r l (1 : Fin 2) e) rfl rfl rfl rfl, enc57, enc57, v39_0, v39_1]
  show Ideal.ofBits .f32 0x00000000#32 + _ = _
  rw [Ideal.ofBits_zero_f32, zero_add]
  rfl

theorem result73 : val_main_v73 (F := Ideal) x0 x1 x2 x3 x4 x5 = dstOut x0 x1 x2 x3 x4 x5 := by
  funext i
  obtain ⟨r, l, e, rfl⟩ : ∃ (r : Fin 256) (l : Fin 512) (e : Fin 64), i = ix3 r l e := ⟨i 0, i 1, i 2, eq_ix3 i⟩
  rw [val_main_v73_apply, val_main_cst_7_apply, Fin.sum_univ_two,
    ext4 (idx_main_v73 (ix3 r l e) 0) (ix4 r l (0 : Fin 2) e) rfl rfl rfl rfl,
    ext4 (idx_main_v73 (ix3 r l e) 1) (ix4 r l (1 : Fin 2) e) rfl rfl rfl rfl, enc72, enc72, v43_0, v43_1]
  show Ideal.ofBits .f32 0x00000000#32 + _ = _
  rw [Ideal.ofBits_zero_f32, zero_add]
  rfl

end Cert.ReferenceIdeal.RefValue

end
-- ==== Proof.lean ====
/-
  Counts of equal ids, encoded by a two-layer map: the kernel and its reference compute the same two arrays.

  For a row `r` of 512 source ids and a row `r` of 512 destination ids, and a position `l`, both programs count how often
  the source id at `(r, l)` occurs in the source row and in the destination row, and how often the destination id at
  `(r, l)` occurs in each; a count whose own id is the padding id 0 is replaced by zero. Each count `c` then goes through
  `max (c * w1 d + b1 d) 0` over 64 hidden units, a 64 by 64 weight matrix and a bias; the first result adds the two
  encodings of the source id's counts, the second those of the destination id's (`Counts.srcOut`, `Counts.dstOut`).

  The kernel works on 16 rows at a time, counts with 0/1 values added as extended reals in four runs of 128 positions
  (for one of the four counts along the other axis of the same comparison table, which is the same count because
  equality of ids is symmetric), encodes all four counts by one matrix product, and writes both results side by side
  into one array that the host cuts in two. The reference counts with 32-bit words over the whole row and converts.
  A row has 512 ids, so the word count is exact; sums of extended reals may be regrouped freely; nothing else differs.
  No fact about the float inputs being finite is needed.
-/
import proofs.«136408_j73701638799824_2_alg».proof.Defs
import proofs.«136408_j73701638799824_2_alg».proof.Proof.Gen.Kernel
import proofs.«136408_j73701638799824_2_alg».proof.Proof.Gen.Kernel.Skeleton
import proofs.«136408_j73701638799824_2_alg».proof.Proof.Gen.Kernel.Launch
import proofs.«136408_j73701638799824_2_alg».proof.Proof.Gen.Kernel.Points
import proofs.«136408_j73701638799824_2_alg».proof.Proof.Gen.Kernel.Frame
import proofs.«136408_j73701638799824_2_alg».proof.Proof.Gen.KernelIdeal
import proofs.«136408_j73701638799824_2_alg».proof.Proof.Gen.KernelIdeal.Skeleton
import proofs.«136408_j73701638799824_2_alg».proof.Proof.Gen.KernelIdeal.Launch
import proofs.«136408_j73701638799824_2_alg».proof.Proof.Gen.KernelIdeal.Points
import proofs.«136408_j73701638799824_2_alg».proof.Proof.Gen.KernelIdeal.Frame
import proofs.«136408_j73701638799824_2_alg».proof.Proof.Gen.ReferenceIdeal
import proofs.«136408_j73701638799824_2_alg».proof.Proof.Gen.Pre_finite_inputs
import proofs.«136408_j73701638799824_2_alg».proof.Proof.KernelArray
import proofs.«136408_j73701638799824_2_alg».proof.Proof.RefEval
import proofs.«136408_j73701638799824_2_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference runs and leaves its arguments unchanged: its run, with the two results dropped. -/
theorem frame_ri : Cert.frame_ReferenceIdeal := fun m ρ _ =>
  (θ_run Cert.ReferenceIdeal.defs _ _).mono (fun _ h c => (h c).2.2) (Cert.ReferenceIdeal.Eval.run m ρ)

/-- From memories that agree on the six arguments both programs end with the first result at `srcOut` and the second
    at `dstOut` of those arguments. -/
theorem algebraic : Cert.algebraic_KernelIdeal_ReferenceIdeal := by
  intro m ρ m' ρ' _ hagree
  refine ⟨_, _, Cert.KernelIdeal.Arr.run m ρ, ?_⟩
  refine (θ_run Cert.ReferenceIdeal.defs _ _).mono (fun _ h c => ⟨(h c).1.trans ?_, (h c).2.1.trans ?_, (h c).2.2⟩)
    (Cert.ReferenceIdeal.Eval.run m' ρ')
  · rw [Cert.ReferenceIdeal.RefValue.result58, (hagree c).1, (hagree c).2.1, (hagree c).2.2.1, (hagree c).2.2.2.1,
      (hagree c).2.2.2.2.1, (hagree c).2.2.2.2.2]
  · rw [Cert.ReferenceIdeal.RefValue.result73, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
